-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S1x1024 : Shape := ⟨2, ![1, 1024]⟩
abbrev S1 : Shape := ⟨1, ![1]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn_part4 {F : FTy → Type} [FloatOps F] (main_arg14 : FVec F S512x1024 .f32) (main_arg15 : FVec F S512 .f32) (main_v63 : IVec S_ 1) (main_v67 : IVec S_ 1) : IVec S_ 1 :=
  let main_v68 : IVec S_ 1 := andi main_v63 main_v67
  let main_v69 : FVec F S512x1024 .f32 := Host.absf main_arg14
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg11 : FVec F S512 .f32) (main_arg12 : FVec F S1x512 .f32) (main_arg13 : FVec F S1 .f32) (main_arg14 : FVec F S512x1024 .f32) (main_arg15 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_v63 main_v67

def fn_part2 {F : FTy → Type} [FloatOps F] (main_arg7 : FVec F S512 .f32) (main_arg8 : FVec F S512x1024 .f32) (main_arg9 : FVec F S512 .f32) (main_arg10 : FVec F S512x512 .f32) (main_arg11 : FVec F S512 .f32) (main_arg12 : FVec F S1x512 .f32) (main_arg13 : FVec F S1 .f32) (main_arg14 : FVec F S512x1024 .f32) (main_arg15 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_v48 main_v49 main_v50

def fn_part1 {F : FTy → Type} [FloatOps F] (main_arg4 : FVec F S1x1024 .f32) (main_arg5 : FVec F S1 .f32) (main_arg6 : FVec F S512x1024 .f32) (main_arg7 : FVec F S512 .f32) (main_arg8 : FVec F S512x1024 .f32) (main_arg9 : FVec F S512 .f32) (main_arg10 : FVec F S512x512 .f32) (main_arg11 : FVec F S512 .f32) (main_arg12 : FVec F S1x512 .f32) (main_arg13 : FVec F S1 .f32) (main_arg14 : FVec F S512x1024 .f32) (main_arg15 : FVec F S512 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x512 .f32) (main_arg1 : FVec F S16384x512 .f32) (main_arg2 : FVec F S16384x512 .f32) (main_arg3 : FVec F S16384x1 .f32) (main_arg4 : FVec F S1x1024 .f32) (main_arg5 : FVec F S1 .f32) (main_arg6 : FVec F S512x1024 .f32) (main_arg7 : FVec F S512 .f32) (main_arg8 : FVec F S512x1024 .f32) (main_arg9 : FVec F S512 .f32) (main_arg10 : FVec F S512x512 .f32) (main_arg11 : FVec F S512 .f32) (main_arg12 : FVec F S1x512 .f32) (main_arg13 : FVec F S1 .f32) (main_arg14 : FVec F S512x1024 .f32) (main_arg15 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x512 : Shape := ⟨2, ![16384, 512]⟩
abbrev S16384x1 : Shape := ⟨2, ![16384, 1]⟩
abbrev S1x1024 : Shape := ⟨2, ![1, 1024]⟩
abbrev S1 : Shape := ⟨1, ![1]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S1024x1 : Shape := ⟨2, ![1024, 1]⟩
abbrev S512x1 : Shape := ⟨2, ![512, 1]⟩
abbrev S1024x512 : Shape := ⟨2, ![1024, 512]⟩
abbrev S1x1 : Shape := ⟨2, ![1, 1]⟩

abbrev nBuf : Space → Nat
  | .hbm => 45
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x1, .f32⟩
  | .hbm, ⟨4, _⟩ => ⟨S1x1024, .f32⟩
  | .hbm, ⟨5, _⟩ => ⟨S1, .f32⟩
  | .hbm, ⟨6, _⟩ => ⟨S512x1024, .f32⟩
  | .hbm, ⟨7, _⟩ => ⟨S512, .f32⟩
  | .hbm, ⟨8, _⟩ => ⟨S512x1024, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1x512, .f32⟩
  | .hbm, ⟨13, _⟩ => ⟨S1, .f32⟩
  | .hbm, ⟨14, _⟩ => ⟨S512x1024, .f32⟩
  | .hbm, ⟨15, _⟩ => ⟨S512, .f32⟩
  | .hbm, ⟨16, _⟩ => ⟨S1024x1, .f32⟩
  | .hbm, ⟨17, _⟩ => ⟨S1024x1, .bf16⟩
  | .hbm, ⟨18, _⟩ => ⟨S512x1, .bf16⟩
  | .hbm, ⟨19, _⟩ => ⟨S512x1, .bf16⟩
  | .hbm, ⟨20, _⟩ => ⟨S1024x512, .f32⟩
  | .hbm, ⟨21, _⟩ => ⟨S1024x512, .bf16⟩
  | .hbm, ⟨22, _⟩ => ⟨S512x512, .bf16⟩
  | .hbm, ⟨23, _⟩ => ⟨S512x512, .bf16⟩
  | .hbm, ⟨24, _⟩ => ⟨S1024x512, .f32⟩
  | .hbm, ⟨25, _⟩ => ⟨S1024x512, .bf16⟩
  | .hbm, ⟨26, _⟩ => ⟨S512x512, .bf16⟩
  | .hbm, ⟨27, _⟩ => ⟨S512x512, .bf16⟩
  | .hbm, ⟨28, _⟩ => ⟨S1024x512, .f32⟩
  | .hbm, ⟨29, _⟩ => ⟨S1024x512, .bf16⟩
  | .hbm, ⟨30, _⟩ => ⟨S512x512, .bf16⟩
  | .hbm, ⟨31, _⟩ => ⟨S512x512, .bf16⟩
  | .hbm, ⟨32, _⟩ => ⟨S512x512, .f32⟩
  | .hbm, ⟨33, _⟩ => ⟨S512x512, .bf16⟩
  | .hbm, ⟨34, _⟩ => ⟨S512x1, .f32⟩
  | .hbm, ⟨35, _⟩ => ⟨S512x1, .bf16⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x1, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S512x1, .bf16⟩
  | .local _ .vmem, ⟨9, _⟩ => ⟨S512x1, .bf16⟩
  | .local _ .vmem, ⟨10, _⟩ => ⟨S1x1, .f32⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S512x1, .bf16⟩
  | .local _ .vmem, ⟨20, _⟩ => ⟨S1x1, .f32⟩
  | .local _ .vmem, ⟨21, _⟩ => ⟨S512x512, .bf16⟩
  | .local _ .vmem, ⟨22, _⟩ => ⟨S512x512, .bf16⟩
  | .local _ .vmem, ⟨23, _⟩ => ⟨S1x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x1, .f32⟩
  | .local _ .vmem, ⟨29, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  transposes_S1x1024_S1024x1_1_0 : S1x1024.Transposes [1, 0] S1024x1
  bitsLt_bf16_f32 : FTy.bits .bf16 < FTy.bits .f32
  slices_S1024x1_S512x1_0_0 : S1024x1.Slices ![0, 0] S512x1
  slices_S1024x1_S512x1_512_0 : S1024x1.Slices ![512, 0] S512x1
  transposes_S512x1024_S1024x512_1_0 : S512x1024.Transposes [1, 0] S1024x512
  slices_S1024x512_S512x512_0_0 : S1024x512.Slices ![0, 0] S512x512
  slices_S1024x512_S512x512_512_0 : S1024x512.Slices ![512, 0] S512x512
  transposes_S512x512_S512x512_1_0 : S512x512.Transposes [1, 0] S512x512
  transposes_S1x512_S512x1_1_0 : S1x512.Transposes [1, 0] S512x1
  shapeCasts_S1_S1x1 : S1.ShapeCasts S1x1
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  natLt_1_32 : 1 < 32
  broadcasts_S512x1_S512x512 : S512x1.Broadcasts S512x512
  reduces_S512x512_S512 : S512x512.Reduces [1] S512
  shapeCasts_S512_S512x1 : S512.ShapeCasts S512x1
  dot_S512x512_S512x1_S512x1_1_0_0_1_n_n_wf : DotDims.WF S512x512 S512x1 S512x1 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .bf16 = 32 ∨ (Rect.block (s := S512x1) S512x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .bf16 = 32 ∨ (Rect.block (s := S512x1) S512x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S512x1.size a
  hwx0_15 : ∀ i : grid0.Coords, EltTy.bits .bf16 = 32 ∨ (Rect.block (s := S512x1) S512x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x512.size a ≤ S512x512.size a
  hwx0_18 : ∀ i : grid0.Coords, EltTy.bits .bf16 = 32 ∨ (Rect.block (s := S512x512) S512x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x512.size a ≤ S1x512.size a
  hwx0_19 : ∀ i : grid0.Coords, EltTy.bits .f32 = 32 ∨ (Rect.block (s := S1x512) S1x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S16384x512.size a
  hwx0_20 : ∀ i : grid0.Coords, EltTy.bits .f32 = 32 ∨ (Rect.block (s := S16384x512) S512x512.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S16384x512.size a
  hwx0_21 : ∀ i : grid0.Coords, EltTy.bits .f32 = 32 ∨ (Rect.block (s := S16384x512) S512x512.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S512x1.size a ≤ S16384x1.size a
  hwx0_22 : ∀ i : grid0.Coords, EltTy.bits .f32 = 32 ∨ (Rect.block (s := S16384x1) S512x1.size (cc0_transform_22 i) (hinb0_22 i)).WholeWords (EltTy.packing .f32)

variable [Facts₀]

def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S512x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v24) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15) S512x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v25) S1x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v26_0) S512x512.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v26_1) S512x512.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v26_2) S512x1.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S1x1024 : Shape := ⟨2, ![1, 1024]⟩
abbrev S1 : Shape := ⟨1, ![1]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S16384x1024 : Shape := ⟨2, ![16384, 1024]⟩
abbrev S1024x1 : Shape := ⟨2, ![1024, 1]⟩
abbrev S1x1 : Shape := ⟨2, ![1, 1]⟩
abbrev S1024x512 : Shape := ⟨2, ![1024, 512]⟩
abbrev S_ : Shape := ⟨0, ![]⟩
abbrev S512x1 : Shape := ⟨2, ![512, 1]⟩
abbrev S16384 : Shape := ⟨1, ![16384]⟩

abbrev nBuf : Space → Nat
  | .hbm => 130
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x1, .f32⟩
  | 4 => ⟨S1x1024, .f32⟩
  | 5 => ⟨S1, .f32⟩
  | 6 => ⟨S512x1024, .f32⟩
  | 7 => ⟨S512, .f32⟩
  | 8 => ⟨S512x1024, .f32⟩
  | 9 => ⟨S512, .f32⟩
  | 10 => ⟨S512x512, .f32⟩
  | 11 => ⟨S512, .f32⟩
  | 12 => ⟨S1x512, .f32⟩
  | 13 => ⟨S1, .f32⟩
  | 14 => ⟨S512x1024, .f32⟩
  | 15 => ⟨S512, .f32⟩
  | 16 => ⟨S16384x1024, .f32⟩
  | 17 => ⟨S1024x1, .f32⟩
  | 18 => ⟨S16384x1, .f32⟩
  | 19 => ⟨S1x1, .f32⟩
  | 20 => ⟨S16384x1, .f32⟩
  | 21 => ⟨S16384x1, .f32⟩
  | 22 => ⟨S1024x512, .f32⟩
  | 23 => ⟨S16384x512, .f32⟩
  | 24 => ⟨S1x512, .f32⟩
  | 25 => ⟨S16384x512, .f32⟩
  | 26 => ⟨S16384x512, .f32⟩
  | 27 => ⟨S1024x512, .f32⟩
  | 28 => ⟨S16384x512, .f32⟩
  | 29 => ⟨S1x512, .f32⟩
  | 30 => ⟨S16384x512, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S512x512, .f32⟩
  | 41 => ⟨S16384x512, .f32⟩
  | 42 => ⟨S1x512, .f32⟩
  | 43 => ⟨S16384x512, .f32⟩
  | 44 => ⟨S16384x512, .f32⟩
  | 45 => ⟨S512x1, .f32⟩
  | 46 => ⟨S16384x1, .f32⟩
  | 47 => ⟨S1x1, .f32⟩
  | 48 => ⟨S16384x1, .f32⟩
  | 49 => ⟨S16384x1, .f32⟩
  | 50 => ⟨S16384x1, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S_, .f32⟩
  | 72 => ⟨S16384x1, .f32⟩
  | 73 => ⟨S16384x1, .i1⟩
  | 74 => ⟨S16384x1, .f32⟩
  | 75 => ⟨S_, .f32⟩
  | 76 => ⟨S_, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x512, .f32⟩
  | 83 => ⟨S16384x512, .f32⟩
  | 84 => ⟨S16384x512, .f32⟩
  | 85 => ⟨S16384x512, .f32⟩
  | 86 => ⟨S16384x512, .f32⟩
  | 87 => ⟨S16384x512, .f32⟩
  | 88 => ⟨S_, .f32⟩
  | 89 => ⟨S16384x1, .f32⟩
  | 90 => ⟨S16384x1, .f32⟩
  | 91 => ⟨S16384x512, .f32⟩
  | 92 => ⟨S16384x512, .f32⟩
  | 93 => ⟨S_, .f32⟩
  | 94 => ⟨S16384, .f32⟩
  | 95 => ⟨S16384x1, .f32⟩
  | 96 => ⟨S_, .f32⟩
  | 97 => ⟨S16384x1, .f32⟩
  | 98 => ⟨S16384x1, .f32⟩
  | 99 => ⟨S16384x512, .f32⟩
  | 100 => ⟨S16384x512, .f32⟩
  | 101 => ⟨S16384x1024, .f32⟩
  | 102 => ⟨S1024x512, .f32⟩
  | 103 => ⟨S16384x512, .f32⟩
  | 104 => ⟨S1x512, .f32⟩
  | 105 => ⟨S16384x512, .f32⟩
  | 106 => ⟨S16384x512, .f32⟩
  | 107 => ⟨S16384x512, .f32⟩
  | 108 => ⟨S16384x512, .f32⟩
  | 109 => ⟨S_, .f32⟩
  | 110 => ⟨S16384x512, .f32⟩
  | 111 => ⟨S16384x512, .f32⟩
  | 112 => ⟨S_, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S16384x512, .f32⟩
  | 119 => ⟨S16384x512, .f32⟩
  | 120 => ⟨S16384x512, .f32⟩
  | 121 => ⟨S16384x512, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S_, .f32⟩
  | _ => ⟨S16384x512, .f32⟩

abbrev hbmTy0_1 (i : Nat) : BufTy := match i % 128 with
  | 0 => ⟨S16384x512, .f32⟩
  | 1 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_call0_v0 : Ref sig .tc := ⟨.hbm, 76, rfl⟩
abbrev main_call0_v1 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_12 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_15 : Ref sig .tc := ⟨.hbm, 124, rfl⟩
abbrev main_v90 : Ref sig .tc := ⟨.hbm, 125, rfl⟩
abbrev main_v91 : Ref sig .tc := ⟨.hbm, 126, rfl⟩
abbrev main_cst_16 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S512x512_S512x512_1_0 : S512x512.Transposes [1, 0] S512x512
  transposes_S1x512_S512x1_1_0 : S1x512.Transposes [1, 0] S512x1
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  dot_S16384x1024_S1024x1_S16384x1_1_0_0_1_n_n_wf : DotDims.WF S16384x1024 S1024x1 S16384x1 [1] [0] [0] [1] [] []
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []
  dot_S16384x512_S512x1_S16384x1_1_0_0_1_n_n_wf : DotDims.WF S16384x512 S512x1 S16384x1 [1] [0] [0] [1] [] []

variable [Facts₀]

def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Spec.lean ====
/-
  One row of the cell, as plain mathematics on the extended reals.

  A row of the batch carries an input row `x`, a state row `s`, a cell row `c` (512 entries each) and a time
  entry `tp`.  With the gates
      z_t = x·Wzt_x + s·Wzt_s + b_zt                         (a number)
      z_c = x·Wzc_x + s·Wzc_s + b_zc,   z_w = σ(x·Wzw_x + s·Wzw_s + b_zw)   (rows)
      i_t = x·Wit + b_it,               r_t = σ(x·wrt + b_rt)
  the new time entry is  max(r_t · σ(tp + z_t) − 1, 0),  the mask m is 1 where  r_t · σ(tp + z_t) − 1 ≤ 0  and 0
  elsewhere, the kept cell is (1 − m)·c, the new cell (1 − m)·c + m·i_t + z_c, the scale is the mean of the kept
  cell's row, and the new state is  σ((1 − z_w)·s + z_w·h + x)  with  h = σ(x·Wh_x + (s·scale)·Wh_s + b_h).
  Every weight matrix acting on the concatenated row [x, s] is met here already split into the half that meets `x`
  and the half that meets `s`; `sum_halves` is the one law that joins the split form with the unsplit one: a sum
  over 1024 terms is the sum of its two halves, which holds in any commutative monoid, infinities or not.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- The weights as a row meets them: for a matrix, entry `(k, j)` multiplies the row's entry `k` into output `j`. -/
structure Weights where
  wztx : Fin 512 → EReal
  wzts : Fin 512 → EReal
  bzt : EReal
  wzcx : Fin 512 → Fin 512 → EReal
  wzcs : Fin 512 → Fin 512 → EReal
  bzc : Fin 512 → EReal
  wzwx : Fin 512 → Fin 512 → EReal
  wzws : Fin 512 → Fin 512 → EReal
  bzw : Fin 512 → EReal
  wit : Fin 512 → Fin 512 → EReal
  bit : Fin 512 → EReal
  wrt : Fin 512 → EReal
  brt : EReal
  whx : Fin 512 → Fin 512 → EReal
  whs : Fin 512 → Fin 512 → EReal
  bh : Fin 512 → EReal

/-- The inner product of two rows of 512 entries. -/
def dot (a u : Fin 512 → EReal) : EReal := ∑ k : Fin 512, a k * u k

/-- The float words the two programs share, never evaluated: 1.0, 0.0 and 512.0. -/
abbrev one : EReal := Ideal.ofBits .f32 0x3F800000#32
abbrev zero : EReal := Ideal.ofBits .f32 0x00000000#32
abbrev n512 : EReal := Ideal.ofBits .f32 0x44000000#32

variable (w : Weights) (x s c : Fin 512 → EReal) (tp : EReal)

def zt : EReal := dot x w.wztx + dot s w.wzts + w.bzt
def zc (j : Fin 512) : EReal := dot x (fun k => w.wzcx k j) + dot s (fun k => w.wzcs k j) + w.bzc j
def zw (j : Fin 512) : EReal := Ideal.logistic (dot x (fun k => w.wzwx k j) + dot s (fun k => w.wzws k j) + w.bzw j)
def it (j : Fin 512) : EReal := dot x (fun k => w.wit k j) + w.bit j
def rt : EReal := Ideal.logistic (dot x w.wrt + w.brt)
/-- The time entry before it is cut at zero. -/
def tpre : EReal := rt w x * Ideal.logistic (tp + zt w x s) - one
/-- The mask: 1 where the uncut time entry is at most zero, 0 elsewhere. -/
def msk : EReal := (((Ideal.cmp .ole (tpre w x s tp) zero).toNat : ℝ) : EReal)
def tnew : EReal := max (tpre w x s tp) zero
def cused (j : Fin 512) : EReal := (one - msk w x s tp) * c j
def cnew (j : Fin 512) : EReal := cused w x s c tp j + msk w x s tp * it w x j + zc w x s j
def cscale : EReal := Ideal.div (∑ k : Fin 512, cused w x s c tp k) n512
def hgate (j : Fin 512) : EReal :=
  Ideal.logistic (dot x (fun k => w.whx k j) + dot (fun k => s k * cscale w x s c tp) (fun k => w.whs k j) + w.bh j)
def snew (j : Fin 512) : EReal :=
  Ideal.logistic ((one - zw w x s j) * s j + zw w x s j * hgate w x s c tp j + x j)

/-! ## The whole arrays -/

abbrev Mat (a b : ℕ) := (⟨2, ![a, b]⟩ : Shape).Idx → EReal
abbrev Vc (a : ℕ) := (⟨1, ![a]⟩ : Shape).Idx → EReal

/-- Column `k` of the half of a 1024-wide matrix that meets `x`, and of the half that meets `s`. -/
def lo (k : Fin 512) : Fin 1024 := ⟨k.val, by have := k.isLt; omega⟩
def hi (k : Fin 512) : Fin 1024 := ⟨512 + k.val, by have := k.isLt; omega⟩

/-- Row `r` of a batch array. -/
def row (A : Mat 16384 512) (r : Fin 16384) : Fin 512 → EReal := fun k => A (ix2 r k)

/-- The weights read off the argument arrays (each matrix is stored output-major: entry `(j, k)`). -/
def weights (Wzt : Mat 1 1024) (bzt : Vc 1) (Wzc : Mat 512 1024) (bzc : Vc 512) (Wzw : Mat 512 1024) (bzw : Vc 512)
    (Wit : Mat 512 512) (bit : Vc 512) (Wrt : Mat 1 512) (brt : Vc 1) (Wh : Mat 512 1024) (bh : Vc 512) : Weights where
  wztx k := Wzt (ix2 (0 : Fin 1) (lo k))
  wzts k := Wzt (ix2 (0 : Fin 1) (hi k))
  bzt := bzt (ix1 (0 : Fin 1))
  wzcx k j := Wzc (ix2 j (lo k))
  wzcs k j := Wzc (ix2 j (hi k))
  bzc j := bzc (ix1 j)
  wzwx k j := Wzw (ix2 j (lo k))
  wzws k j := Wzw (ix2 j (hi k))
  bzw j := bzw (ix1 j)
  wit k j := Wit (ix2 j k)
  bit j := bit (ix1 j)
  wrt k := Wrt (ix2 (0 : Fin 1) k)
  brt := brt (ix1 (0 : Fin 1))
  whx k j := Wh (ix2 j (lo k))
  whs k j := Wh (ix2 j (hi k))
  bh j := bh (ix1 j)

/-- The three results as whole arrays: row `r` of each is the cell's row function of row `r` of the inputs. -/
def newState (X S C : Mat 16384 512) (T : Mat 16384 1) (w : Weights) : Mat 16384 512 :=
  fun i => snew w (row X (i 0)) (row S (i 0)) (row C (i 0)) (T (ix2 (i 0) (0 : Fin 1))) (i 1)
def newCell (X S C : Mat 16384 512) (T : Mat 16384 1) (w : Weights) : Mat 16384 512 :=
  fun i => cnew w (row X (i 0)) (row S (i 0)) (row C (i 0)) (T (ix2 (i 0) (0 : Fin 1))) (i 1)
def newTime (X S : Mat 16384 512) (T : Mat 16384 1) (w : Weights) : Mat 16384 1 :=
  fun i => tnew w (row X (i 0)) (row S (i 0)) (T (ix2 (i 0) (0 : Fin 1)))

/-! ## Three small laws -/

/-- A sum over 1024 terms is the sum over the first 512 plus the sum over the last 512. -/
theorem sum_halves (f : Fin 1024 → EReal) :
    ∑ k : Fin 1024, f k = (∑ k : Fin 512, f (lo k)) + ∑ k : Fin 512, f (hi k) := by
  have h := Fin.sum_univ_add (a := 512) (b := 512) (fun k => f (k.cast (by norm_num)))
  have e : ∑ k : Fin 1024, f k = ∑ k : Fin (512 + 512), f (k.cast (by norm_num)) := by
    rfl
  rw [e, h]
  rfl

/-- One bit widened to 32 bits and read as a signed integer is that bit read as a natural number. -/
theorem bit_signed_eq_unsigned (b : BitVec 1) :
    (((b.setWidth 32).toInt : ℝ) : EReal) = (((b.toNat : ℕ) : ℝ) : EReal) := by
  have h : ∀ b : BitVec 1, (b.setWidth 32).toInt = (b.toNat : ℤ) := by decide
  rw [h b]; norm_cast

/-- The logistic function spelled out with the word 1.0 is the logistic function. -/
theorem logistic_spelled (y : EReal) : Ideal.div one (one + Ideal.exp (-y)) = Ideal.logistic y := by
  have h1 : one = 1 := by
    show Ideal.ofBits .f32 0x3F800000#32 = 1
    simp [Ideal.ofBits, Ideal.ieee, -EReal.coe_mul]; norm_num
  rw [h1]; rfl

end Cert.Cell

end
-- ==== Proof.HostSide.lean ====
/-
  The weight arrays the kernel's one region is handed, read at an index.

  Before its region the program prepares each weight on the host: a weight matrix stored output-major, `W : [n, 1024]`
  (or `[n, 512]`), is transposed, re-formatted (at the ideal instance a change of format is the identity) and, when it
  acts on the concatenated row `[x, s]`, cut into its rows `0:512` (the half that meets `x`) and `512:1024` (the half
  that meets `s`); each bias vector `b : [n]` is reshaped to the one-row matrix `[1, n]`. Read at an index these are
      (rows o:o+512 of Wᵀ) (k, j) = W (j, o + k),        (Wᵀ) (k, j) = W (j, k),        (b as a row) (u, j) = b (j),
  three general facts about arrays (`rows_of_transposed`, `transposed_apply`, and the library's reshape lemma), which the
  sixteen lemmas `V_main_v…_apply` instantiate at the arrays the region is entered with. The columns `o + k` are
  written `lo k` (o = 0) and `hi k` (o = 512) as in the specification.
-/
import proofs.«161454_j24919400252151_1_alg».proof.Proof.Gen.KernelIdeal.Frame
import proofs.«161454_j24919400252151_1_alg».proof.Proof.Spec
import Idealize.ShloMosaic.Lib.ValueLayout

noncomputable section

namespace Cert.Cell.Host

open Idealize.ShloMosaic Idealize.ShloMosaic.ValueIdx Idealize.ShloMosaic.Tactic
open Idealize.ShloMosaic.TcCoe
open Cert.KernelIdeal Cert.KernelIdeal.Gen

/-! ## Two general facts -/

/-- A matrix `X : [a, b]` transposed, re-formatted and cut along its rows from `o`: entry `(k, j)` of the result is
    entry `(j, q)` of `X`, where `q = o + k`. -/
theorem rows_of_transposed {a b r : ℕ} (o : ℕ) (X : FVec Idealize.ShloMosaic.Ideal ⟨2, ![a, b]⟩ .f32)
    (ht : (⟨2, ![a, b]⟩ : Shape).Transposes [1, 0] ⟨2, ![b, a]⟩)
    (hb : FTy.bf16.bits < FTy.f32.bits)
    (hs : (⟨2, ![b, a]⟩ : Shape).Slices ![o, 0] ⟨2, ![r, a]⟩)
    (k : Fin r) (j : Fin a) (q : Fin b) (hq : q.val = o + k.val) :
    extractStridedSlice ⟨2, ![r, a]⟩ ![o, 0] (truncf .bf16 (transpose ⟨2, ![b, a]⟩ [1, 0] X ht) hb) hs (ix2 k j)
      = X (ix2 j q) := by
  rw [slice2_axis0_apply o _ hs k j q hq, truncf_apply, transpose_ix2_apply]

/-- A matrix `X : [a, b]` transposed and re-formatted: entry `(k, j)` of the result is entry `(j, k)` of `X`. -/
theorem transposed_apply {a b : ℕ} (X : FVec Idealize.ShloMosaic.Ideal ⟨2, ![a, b]⟩ .f32)
    (ht : (⟨2, ![a, b]⟩ : Shape).Transposes [1, 0] ⟨2, ![b, a]⟩)
    (hb : FTy.bf16.bits < FTy.f32.bits) (k : Fin b) (j : Fin a) :
    (truncf .bf16 (transpose ⟨2, ![b, a]⟩ [1, 0] X ht) hb : FVec Idealize.ShloMosaic.Ideal ⟨2, ![b, a]⟩ .bf16) (ix2 k j) = X (ix2 j k) := by
  rw [truncf_apply, transpose_ix2_apply]

/-- The column `lo k` is column `0 + k` … -/
theorem lo_val (k : Fin 512) : (lo k).val = 0 + k.val := (Nat.zero_add _).symm
/-- … and `hi k` is column `512 + k`. -/
theorem hi_val (k : Fin 512) : (hi k).val = 512 + k.val := rfl

/-! ## The sixteen arrays the region stages -/

variable (m : (ℓ : Loc nD τ sig) → Buf (Elt Idealize.ShloMosaic.Ideal) ℓ) (c : Dev nD)

/-- The time gate's weight row, the half that meets `x`, as a column: entry `(k, 0)` is `W (0, k)`. -/
theorem V_main_v2_apply (k : Fin 512) (z : Fin 1) :
    (V m c main_v2 : S512x1.Idx → EReal) (ix2 k z) = (m ((c : Thread nD τ).loc main_arg4) : S1x1024.Idx → EReal) (ix2 (0 : Fin 1) (lo k)) := by
  have e : @Eq (S512x1.Idx → EReal) (V m c main_v2) (extractStridedSlice S512x1 ![0, 0]
      (truncf (F := Idealize.ShloMosaic.Ideal) FTy.bf16 (transpose S1024x1 [1, 0] (m ((c : Thread nD τ).loc main_arg4) : S1x1024.Idx → EReal) transposes_S1x1024_S1024x1_1_0) bitsLt_bf16_f32) slices_S1024x1_S512x1_0_0) := by
    dsimp only [Gen.V, Gen.hostOps0]
    after_results <;> rfl
  obtain rfl : z = 0 := Subsingleton.elim _ _
  rw [e]
  exact rows_of_transposed 0 _ _ _ _ k 0 (lo k) (lo_val k)

/-- The time gate's weight row, the half that meets `s`, as a column: entry `(k, 0)` is `W (0, 512 + k)`. -/
theorem V_main_v3_apply (k : Fin 512) (z : Fin 1) :
    (V m c main_v3 : S512x1.Idx → EReal) (ix2 k z) = (m ((c : Thread nD τ).loc main_arg4) : S1x1024.Idx → EReal) (ix2 (0 : Fin 1) (hi k)) := by
  have e : @Eq (S512x1.Idx → EReal) (V m c main_v3) (extractStridedSlice S512x1 ![512, 0]
      (truncf (F := Idealize.ShloMosaic.Ideal) FTy.bf16 (transpose S1024x1 [1, 0] (m ((c : Thread nD τ).loc main_arg4) : S1x1024.Idx → EReal) transposes_S1x1024_S1024x1_1_0) bitsLt_bf16_f32) slices_S1024x1_S512x1_512_0) := by
    dsimp only [Gen.V, Gen.hostOps0]
    after_results <;> rfl
  obtain rfl : z = 0 := Subsingleton.elim _ _
  rw [e]
  exact rows_of_transposed 512 _ _ _ _ k 0 (hi k) (hi_val k)

/-- The time gate's bias as a one-entry matrix. -/
theorem V_main_v20_apply (u z : Fin 1) :
    (V m c main_v20 : S1x1.Idx → EReal) (ix2 u z) = (m ((c : Thread nD τ).loc main_arg5) : S1.Idx → EReal) (ix1 (0 : Fin 1)) := by
  have e : @Eq (S1x1.Idx → EReal) (V m c main_v20) (shapeCast S1x1 (m ((c : Thread nD τ).loc main_arg5) : S1.Idx → EReal) shapeCasts_S1_S1x1) := by
    dsimp only [Gen.V, Gen.hostOps0]
    after_results <;> rfl
  obtain rfl : z = 0 := Subsingleton.elim _ _
  rw [e]
  exact shapeCast_a_1a_apply _ _ u 0

/-- The cell gate's weights, the half that meets `x`: entry `(k, j)` is `W (j, k)`. -/
theorem V_main_v6_apply (k j : Fin 512) :
    (V m c main_v6 : S512x512.Idx → EReal) (ix2 k j) = (m ((c : Thread nD τ).loc main_arg6) : S512x1024.Idx → EReal) (ix2 j (lo k)) := by
  have e : @Eq (S512x512.Idx → EReal) (V m c main_v6) (extractStridedSlice S512x512 ![0, 0]
      (truncf (F := Idealize.ShloMosaic.Ideal) FTy.bf16 (transpose S1024x512 [1, 0] (m ((c : Thread nD τ).loc main_arg6) : S512x1024.Idx → EReal) transposes_S512x1024_S1024x512_1_0) bitsLt_bf16_f32) slices_S1024x512_S512x512_0_0) := by
    dsimp only [Gen.V, Gen.hostOps0]
    after_results <;> rfl
  rw [e]
  exact rows_of_transposed 0 _ _ _ _ k j (lo k) (lo_val k)

/-- The cell gate's weights, the half that meets `s`: entry `(k, j)` is `W (j, 512 + k)`. -/
theorem V_main_v7_apply (k j : Fin 512) :
    (V m c main_v7 : S512x512.Idx → EReal) (ix2 k j) = (m ((c : Thread nD τ).loc main_arg6) : S512x1024.Idx → EReal) (ix2 j (hi k)) := by
  have e : @Eq (S512x512.Idx → EReal) (V m c main_v7) (extractStridedSlice S512x512 ![512, 0]
      (truncf (F := Idealize.ShloMosaic.Ideal) FTy.bf16 (transpose S1024x512 [1, 0] (m ((c : Thread nD τ).loc main_arg6) : S512x1024.Idx → EReal) transposes_S512x1024_S1024x512_1_0) bitsLt_bf16_f32) slices_S1024x512_S512x512_512_0) := by
    dsimp only [Gen.V, Gen.hostOps0]
    after_results <;> rfl
  rw [e]
  exact rows_of_transposed 512 _ _ _ _ k j (hi k) (hi_val k)

/-- The cell gate's bias as a row. -/
theorem V_main_v21_apply (u : Fin 1) (j : Fin 512) :
    (V m c main_v21 : S1x512.Idx → EReal) (ix2 u j) = (m ((c : Thread nD τ).loc main_arg7) : S512.Idx → EReal) (ix1 j) := by
  have e : @Eq (S1x512.Idx → EReal) (V m c main_v21) (shapeCast S1x512 (m ((c : Thread nD τ).loc main_arg7) : S512.Idx → EReal) shapeCasts_S512_S1x512) := by
    dsimp only [Gen.V, Gen.hostOps0]
    after_results <;> rfl
  rw [e]
  exact shapeCast_a_1a_apply _ _ u j

/-- The mixing gate's weights, the half that meets `x`. -/
theorem V_main_v10_apply (k j : Fin 512) :
    (V m c main_v10 : S512x512.Idx → EReal) (ix2 k j) = (m ((c : Thread nD τ).loc main_arg8) : S512x1024.Idx → EReal) (ix2 j (lo k)) := by
  have e : @Eq (S512x512.Idx → EReal) (V m c main_v10) (extractStridedSlice S512x512 ![0, 0]
      (truncf (F := Idealize.ShloMosaic.Ideal) FTy.bf16 (transpose S1024x512 [1, 0] (m ((c : Thread nD τ).loc main_arg8) : S512x1024.Idx → EReal) transposes_S512x1024_S1024x512_1_0) bitsLt_bf16_f32) slices_S1024x512_S512x512_0_0) := by
    dsimp only [Gen.V, Gen.hostOps0]
    after_results <;> rfl
  rw [e]
  exact rows_of_transposed 0 _ _ _ _ k j (lo k) (lo_val k)

/-- The mixing gate's weights, the half that meets `s`. -/
theorem V_main_v11_apply (k j : Fin 512) :
    (V m c main_v11 : S512x512.Idx → EReal) (ix2 k j) = (m ((c : Thread nD τ).loc main_arg8) : S512x1024.Idx → EReal) (ix2 j (hi k)) := by
  have e : @Eq (S512x512.Idx → EReal) (V m c main_v11) (extractStridedSlice S512x512 ![512, 0]
      (truncf (F := Idealize.ShloMosaic.Ideal) FTy.bf16 (transpose S1024x512 [1, 0] (m ((c : Thread nD τ).loc main_arg8) : S512x1024.Idx → EReal) transposes_S512x1024_S1024x512_1_0) bitsLt_bf16_f32) slices_S1024x512_S512x512_512_0) := by
    dsimp only [Gen.V, Gen.hostOps0]
    after_results <;> rfl
  rw [e]
  exact rows_of_transposed 512 _ _ _ _ k j (hi k) (hi_val k)

/-- The mixing gate's bias as a row. -/
theorem V_main_v22_apply (u : Fin 1) (j : Fin 512) :
    (V m c main_v22 : S1x512.Idx → EReal) (ix2 u j) = (m ((c : Thread nD τ).loc main_arg9) : S512.Idx → EReal) (ix1 j) := by
  have e : @Eq (S1x512.Idx → EReal) (V m c main_v22) (shapeCast S1x512 (m ((c : Thread nD τ).loc main_arg9) : S512.Idx → EReal) shapeCasts_S512_S1x512) := by
    dsimp only [Gen.V, Gen.hostOps0]
    after_results <;> rfl
  rw [e]
  exact shapeCast_a_1a_apply _ _ u j

/-- The input gate's weights: entry `(k, j)` is `W (j, k)`. -/
theorem V_main_v17_apply (k j : Fin 512) :
    (V m c main_v17 : S512x512.Idx → EReal) (ix2 k j) = (m ((c : Thread nD τ).loc main_arg10) : S512x512.Idx → EReal) (ix2 j k) := by
  have e : @Eq (S512x512.Idx → EReal) (V m c main_v17)
      (truncf (F := Idealize.ShloMosaic.Ideal) FTy.bf16 (transpose S512x512 [1, 0] (m ((c : Thread nD τ).loc main_arg10) : S512x512.Idx → EReal) transposes_S512x512_S512x512_1_0) bitsLt_bf16_f32) := by
    dsimp only [Gen.V, Gen.hostOps0]
    after_results <;> rfl
  rw [e]
  exact transposed_apply _ _ _ k j

/-- The input gate's bias as a row. -/
theorem V_main_v23_apply (u : Fin 1) (j : Fin 512) :
    (V m c main_v23 : S1x512.Idx → EReal) (ix2 u j) = (m ((c : Thread nD τ).loc main_arg11) : S512.Idx → EReal) (ix1 j) := by
  have e : @Eq (S1x512.Idx → EReal) (V m c main_v23) (shapeCast S1x512 (m ((c : Thread nD τ).loc main_arg11) : S512.Idx → EReal) shapeCasts_S512_S1x512) := by
    dsimp only [Gen.V, Gen.hostOps0]
    after_results <;> rfl
  rw [e]
  exact shapeCast_a_1a_apply _ _ u j

/-- The reset gate's weight row as a column: entry `(k, 0)` is `W (0, k)`. -/
theorem V_main_v19_apply (k : Fin 512) (z : Fin 1) :
    (V m c main_v19 : S512x1.Idx → EReal) (ix2 k z) = (m ((c : Thread nD τ).loc main_arg12) : S1x512.Idx → EReal) (ix2 (0 : Fin 1) k) := by
  have e : @Eq (S512x1.Idx → EReal) (V m c main_v19)
      (truncf (F := Idealize.ShloMosaic.Ideal) FTy.bf16 (transpose S512x1 [1, 0] (m ((c : Thread nD τ).loc main_arg12) : S1x512.Idx → EReal) transposes_S1x512_S512x1_1_0) bitsLt_bf16_f32) := by
    dsimp only [Gen.V, Gen.hostOps0]
    after_results <;> rfl
  obtain rfl : z = 0 := Subsingleton.elim _ _
  rw [e]
  exact transposed_apply _ _ _ k 0

/-- The reset gate's bias as a one-entry matrix. -/
theorem V_main_v24_apply (u z : Fin 1) :
    (V m c main_v24 : S1x1.Idx → EReal) (ix2 u z) = (m ((c : Thread nD τ).loc main_arg13) : S1.Idx → EReal) (ix1 (0 : Fin 1)) := by
  have e : @Eq (S1x1.Idx → EReal) (V m c main_v24) (shapeCast S1x1 (m ((c : Thread nD τ).loc main_arg13) : S1.Idx → EReal) shapeCasts_S1_S1x1) := by
    dsimp only [Gen.V, Gen.hostOps0]
    after_results <;> rfl
  obtain rfl : z = 0 := Subsingleton.elim _ _
  rw [e]
  exact shapeCast_a_1a_apply _ _ u 0

/-- The candidate state's weights, the half that meets `x`. -/
theorem V_main_v14_apply (k j : Fin 512) :
    (V m c main_v14 : S512x512.Idx → EReal) (ix2 k j) = (m ((c : Thread nD τ).loc main_arg14) : S512x1024.Idx → EReal) (ix2 j (lo k)) := by
  have e : @Eq (S512x512.Idx → EReal) (V m c main_v14) (extractStridedSlice S512x512 ![0, 0]
      (truncf (F := Idealize.ShloMosaic.Ideal) FTy.bf16 (transpose S1024x512 [1, 0] (m ((c : Thread nD τ).loc main_arg14) : S512x1024.Idx → EReal) transposes_S512x1024_S1024x512_1_0) bitsLt_bf16_f32) slices_S1024x512_S512x512_0_0) := by
    dsimp only [Gen.V, Gen.hostOps0]
    after_results <;> rfl
  rw [e]
  exact rows_of_transposed 0 _ _ _ _ k j (lo k) (lo_val k)

/-- The candidate state's weights, the half that meets the scaled `s`. -/
theorem V_main_v15_apply (k j : Fin 512) :
    (V m c main_v15 : S512x512.Idx → EReal) (ix2 k j) = (m ((c : Thread nD τ).loc main_arg14) : S512x1024.Idx → EReal) (ix2 j (hi k)) := by
  have e : @Eq (S512x512.Idx → EReal) (V m c main_v15) (extractStridedSlice S512x512 ![512, 0]
      (truncf (F := Idealize.ShloMosaic.Ideal) FTy.bf16 (transpose S1024x512 [1, 0] (m ((c : Thread nD τ).loc main_arg14) : S512x1024.Idx → EReal) transposes_S512x1024_S1024x512_1_0) bitsLt_bf16_f32) slices_S1024x512_S512x512_512_0) := by
    dsimp only [Gen.V, Gen.hostOps0]
    after_results <;> rfl
  rw [e]
  exact rows_of_transposed 512 _ _ _ _ k j (hi k) (hi_val k)

/-- The candidate state's bias as a row. -/
theorem V_main_v25_apply (u : Fin 1) (j : Fin 512) :
    (V m c main_v25 : S1x512.Idx → EReal) (ix2 u j) = (m ((c : Thread nD τ).loc main_arg15) : S512.Idx → EReal) (ix1 j) := by
  have e : @Eq (S1x512.Idx → EReal) (V m c main_v25) (shapeCast S1x512 (m ((c : Thread nD τ).loc main_arg15) : S512.Idx → EReal) shapeCasts_S512_S1x512) := by
    dsimp only [Gen.V, Gen.hostOps0]
    after_results <;> rfl
  rw [e]
  exact shapeCast_a_1a_apply _ _ u j

end Cert.Cell.Host

end
-- ==== Proof.LibColumn.lean ====
/-
  Two layout operations of a row reduction kept as a column, read at an index.

  A sum over the last axis of an [a, b] array is an [a] vector; `keepdims` views it as an [a, 1] column, and dividing
  the array by it broadcasts the column back to [a, b].  Entry `p` of the vector is entry (p, 0) of the column, and
  entry (p, c) of the broadcast column is entry (p, 0) of the column, whatever `c`.
-/
import Idealize.ShloMosaic.Lib.ValueIdx
import Idealize.ShloMosaic.Lib.Pipeline.Value

namespace Cert.CausalRows

open Idealize.ShloMosaic Idealize.ShloMosaic.ValueIdx

variable {α : Type}

/-- An `[a]` vector cast to an `[a, 1]` column reads, at `(p, z)`, the vector at `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    rw [Shape.rowMajor_val_one, Shape.rowMajor_val_two]
    show p.val = p.val * 1 + z.val
    omega)

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.CausalRows
-- ==== Proof.KernMatmul.lean ====
import proofs.«161454_j24919400252151_1_alg».proof.Proof.Gen.KernelIdeal.Skeleton
import proofs.«161454_j24919400252151_1_alg».proof.Proof.Spec
import proofs.«161454_j24919400252151_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Cell.Kern

open Idealize.ShloMosaic Idealize.ShloMosaic.ValueIdx Cert.KernelIdeal Cert.KernelIdeal.Gen Cert.Cell

/-- A [512,512] × [512,512] product onto the zero accumulator, read at (p, j): the sum over k of lhs (p, k) · rhs (k, j). -/
theorem mm_sq {φ₁ φ₂ : FTy} (lhs : FVec Ideal S512x512 φ₁) (rhs : FVec Ideal S512x512 φ₂) (p j : Fin 512) :
    matmul dot_S512x512_S512x512_S512x512_1_0_0_1_n_n none lhs rhs (constant S512x512 .f32 0x00000000#32) (ix2 p j)
      = ∑ k : Fin 512, lhs (ix2 p k) * rhs (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p j) ((ValueIdx.contrEquiv1 dot_S512x512_S512x512_S512x512_1_0_0_1_n_n 512 rfl rfl).symm k) = ix2 p k := funext fun a => Fin.ext (by
    match a with
    | ⟨0, _⟩ =>
      show (dot_S512x512_S512x512_S512x512_1_0_0_1_n_n.lhsIdx (ix2 p j) _ 0).val = p.val
      unfold DotDims.lhsIdx
      rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
      rfl
    | ⟨1, _⟩ => exact (dot_S512x512_S512x512_S512x512_1_0_0_1_n_n.lhsIdx_val_of_single rfl (ix2 p j) _).trans hk)
  have er : dot_S512x512_S512x512_S512x512_1_0_0_1_n_n.rhsIdx (ix2 p j) ((ValueIdx.contrEquiv1 dot_S512x512_S512x512_S512x512_1_0_0_1_n_n 512 rfl rfl).symm k) = ix2 k j := funext fun a => Fin.ext (by
    match a with
    | ⟨0, _⟩ => exact (dot_S512x512_S512x512_S512x512_1_0_0_1_n_n.rhsIdx_val_of_single rfl (ix2 p j) _).trans hk
    | ⟨1, _⟩ =>
      show (dot_S512x512_S512x512_S512x512_1_0_0_1_n_n.rhsIdx (ix2 p j) _ 1).val = j.val
      unfold DotDims.rhsIdx
      rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
      rfl)
  rw [el, er]

/-- A [512,512] × [512,1] product onto the zero accumulator, read at (p, z): the sum over k of lhs (p, k) · rhs (k, z). -/
theorem mm_col {φ₁ φ₂ : FTy} (lhs : FVec Ideal S512x512 φ₁) (rhs : FVec Ideal S512x1 φ₂) (p : Fin 512) (z : Fin 1) :
    matmul dot_S512x512_S512x1_S512x1_1_0_0_1_n_n none lhs rhs (constant S512x1 .f32 0x00000000#32) (ix2 p z)
      = ∑ k : Fin 512, lhs (ix2 p k) * rhs (ix2 k z) := by
  simp only [matmul]
  rw [Ideal.matmul_constant_zero_apply, ← Equiv.sum_comp (ValueIdx.contrEquiv1 dot_S512x512_S512x1_S512x1_1_0_0_1_n_n 512 rfl rfl).symm]
  refine Finset.sum_congr rfl fun k _ => ?_
  have hk := ValueIdx.contrEquiv1_symm_val dot_S512x512_S512x1_S512x1_1_0_0_1_n_n 512 rfl rfl k
  have el : dot_S512x512_S512x1_S512x1_1_0_0_1_n_n.lhsIdx (ix2 p z) ((ValueIdx.contrEquiv1 dot_S512x512_S512x1_S512x1_1_0_0_1_n_n 512 rfl rfl).symm k) = ix2 p k := funext fun a => Fin.ext (by
    match a with
    | ⟨0, _⟩ =>
      show (dot_S512x512_S512x1_S512x1_1_0_0_1_n_n.lhsIdx (ix2 p z) _ 0).val = p.val
      unfold DotDims.lhsIdx
      rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
      rfl
    | ⟨1, _⟩ => exact (dot_S512x512_S512x1_S512x1_1_0_0_1_n_n.lhsIdx_val_of_single rfl (ix2 p z) _).trans hk)
  have er : dot_S512x512_S512x1_S512x1_1_0_0_1_n_n.rhsIdx (ix2 p z) ((ValueIdx.contrEquiv1 dot_S512x512_S512x1_S512x1_1_0_0_1_n_n 512 rfl rfl).symm k) = ix2 k z := funext fun a => Fin.ext (by
    match a with
    | ⟨0, _⟩ => exact (dot_S512x512_S512x1_S512x1_1_0_0_1_n_n.rhsIdx_val_of_single rfl (ix2 p z) _).trans hk
    | ⟨1, _⟩ =>
      show (dot_S512x512_S512x1_S512x1_1_0_0_1_n_n.rhsIdx (ix2 p z) _ 1).val = z.val
      unfold DotDims.rhsIdx
      rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
      rfl)
  rw [el, er]

end Cert.Cell.Kern

end
-- ==== Proof.KernRow.lean ====
import proofs.«161454_j24919400252151_1_alg».proof.Proof.KernMatmul

noncomputable section

namespace Cert.Cell.Kern

open Idealize.ShloMosaic Idealize.ShloMosaic.ValueIdx Cert.KernelIdeal Cert.KernelIdeal.Gen Cert.Cell Cert.CausalRows

local notation "ID" => Idealize.ShloMosaic.Ideal

variable (x0 x1 x2 : Vec ID S512x512 .f32) (x3 : Vec ID S512x1 .f32) (x4 x5 : Vec ID S512x1 .bf16) (x6 : Vec ID S1x1 .f32)
  (x7 x8 : Vec ID S512x512 .bf16) (x9 : Vec ID S1x512 .f32) (x10 x11 : Vec ID S512x512 .bf16) (x12 : Vec ID S1x512 .f32)
  (x13 : Vec ID S512x512 .bf16) (x14 : Vec ID S1x512 .f32) (x15 : Vec ID S512x1 .bf16) (x16 : Vec ID S1x1 .f32)
  (x17 x18 : Vec ID S512x512 .bf16) (x19 : Vec ID S1x512 .f32)

/-- The weights as the sixteen resident weight blocks hold them: each matrix block already has the row's entry `k`
    on its first axis and the output `j` on its second; each bias block is one row. -/
def wblk : Weights where
  wztx k := x4 (ix2 k (0 : Fin 1))
  wzts k := x5 (ix2 k (0 : Fin 1))
  bzt := x6 (ix2 (0 : Fin 1) (0 : Fin 1))
  wzcx k j := x7 (ix2 k j)
  wzcs k j := x8 (ix2 k j)
  bzc j := x9 (ix2 (0 : Fin 1) j)
  wzwx k j := x10 (ix2 k j)
  wzws k j := x11 (ix2 k j)
  bzw j := x12 (ix2 (0 : Fin 1) j)
  wit k j := x13 (ix2 k j)
  bit j := x14 (ix2 (0 : Fin 1) j)
  wrt k := x15 (ix2 k (0 : Fin 1))
  brt := x16 (ix2 (0 : Fin 1) (0 : Fin 1))
  whx k j := x17 (ix2 k j)
  whs k j := x18 (ix2 k j)
  bh j := x19 (ix2 (0 : Fin 1) j)

/-- Row `p` of a [512, 512] block. -/
def brow (x : Vec ID S512x512 .f32) (p : Fin 512) : Fin 512 → EReal := fun k => x (ix2 p k)

local notation "W" => wblk x4 x5 x6 x7 x8 x9 x10 x11 x12 x13 x14 x15 x16 x17 x18 x19

/-- z_t at row `p` of the block. -/
theorem pay5_apply (p : Fin 512) (z : Fin 1) :
    k0_pay5 (F := ID) x0 x1 x4 x5 x6 (ix2 p z) = zt W (brow x0 p) (brow x1 p) := by
  obtain rfl : z = 0 := Subsingleton.elim _ _
  unfold k0_pay5 k0_pay3 k0_pay4
  dsimp only
  rw [addf_apply, addf_apply, mm_col, mm_col, shapeCast_self, shapeCast_self, shapeCast_self,
    ValueIdx.broadcastTo_1b_ab_apply]
  rfl

/-- z_c at (p, j). -/
theorem pay6_apply (p j : Fin 512) :
    k0_pay6 (F := ID) x0 x1 x7 x8 x9 (ix2 p j) = zc W (brow x0 p) (brow x1 p) j := by
  unfold k0_pay6 k0_pay3 k0_pay4
  dsimp only
  rw [addf_apply, addf_apply, mm_sq, mm_sq, shapeCast_self, shapeCast_self, shapeCast_self,
    ValueIdx.broadcastTo_1b_ab_apply]
  rfl

/-- z_w at (p, j). -/
theorem pay8_apply (p j : Fin 512) :
    k0_pay8 (F := ID) (k0_pay4 x1) (k0_pay7 x0 x10) x11 x12 (ix2 p j) = zw W (brow x0 p) (brow x1 p) j := by
  unfold k0_pay8 k0_pay7 k0_pay3 k0_pay4
  dsimp only
  show Idealize.ShloMosaic.Ideal.logistic _ = _
  rw [addf_apply, addf_apply, mm_sq, mm_sq, shapeCast_self, shapeCast_self, shapeCast_self,
    ValueIdx.broadcastTo_1b_ab_apply]
  rfl

end Cert.Cell.Kern

end
-- ==== Proof.KernGate.lean ====
import proofs.«161454_j24919400252151_1_alg».proof.Proof.KernRow

noncomputable section

namespace Cert.Cell.Kern

open Idealize.ShloMosaic Idealize.ShloMosaic.ValueIdx Cert.KernelIdeal Cert.KernelIdeal.Gen Cert.Cell Cert.CausalRows

local notation "ID" => Idealize.ShloMosaic.Ideal

variable (x0 x1 x2 : Vec ID S512x512 .f32) (x3 : Vec ID S512x1 .f32) (x4 x5 : Vec ID S512x1 .bf16) (x6 : Vec ID S1x1 .f32)
  (x7 x8 : Vec ID S512x512 .bf16) (x9 : Vec ID S1x512 .f32) (x10 x11 : Vec ID S512x512 .bf16) (x12 : Vec ID S1x512 .f32)
  (x13 : Vec ID S512x512 .bf16) (x14 : Vec ID S1x512 .f32) (x15 : Vec ID S512x1 .bf16) (x16 : Vec ID S1x1 .f32)
  (x17 x18 : Vec ID S512x512 .bf16) (x19 : Vec ID S1x512 .f32)

local notation "W" => wblk x4 x5 x6 x7 x8 x9 x10 x11 x12 x13 x14 x15 x16 x17 x18 x19

/-- The logistic function of a vector, read at an index. -/
theorem logistic_apply {s : Shape} {φ : FTy} (v : FVec ID s φ) (i : s.Idx) :
    logistic v i = Idealize.ShloMosaic.Ideal.logistic (v i) := rfl

/-- The uncut time entry at row `p`: r_t · σ(tp + z_t) − 1. -/
theorem pay9_apply (p : Fin 512) (z : Fin 1) :
    k0_pay9 (F := ID) x3 (k0_pay3 x0) (k0_pay5 x0 x1 x4 x5 x6) x15 x16 (ix2 p z)
      = tpre W (brow x0 p) (brow x1 p) (x3 (ix2 p (0 : Fin 1))) := by
  obtain rfl : z = 0 := Subsingleton.elim _ _
  unfold k0_pay9 k0_pay3
  dsimp only
  rw [subf_apply, mulf_apply, logistic_apply, logistic_apply, addf_apply, addf_apply, mm_col, shapeCast_self, shapeCast_self,
    ValueIdx.broadcastTo_1b_ab_apply, pay5_apply]
  rfl

/-- The mask at row `p`: the comparison's bit, widened and read as a signed integer, is the bit as a number. -/
theorem pay10_apply (p : Fin 512) (z : Fin 1) :
    k0_pay10 (F := ID) x3 (k0_pay3 x0) (k0_pay5 x0 x1 x4 x5 x6) x15 x16 (ix2 p z)
      = msk W (brow x0 p) (brow x1 p) (x3 (ix2 p (0 : Fin 1))) := by
  unfold k0_pay10
  rw [sitofp_apply, extui_apply, cmpf_apply, pay9_apply]
  exact bit_signed_eq_unsigned _

/-- The new time entry at row `p`. -/
theorem pay11_apply (p : Fin 512) (z : Fin 1) :
    k0_pay11 (F := ID) x3 (k0_pay3 x0) (k0_pay5 x0 x1 x4 x5 x6) x15 x16 (ix2 p z)
      = tnew W (brow x0 p) (brow x1 p) (x3 (ix2 p (0 : Fin 1))) := by
  unfold k0_pay11
  rw [maximumf_apply, pay9_apply]
  rfl

/-- The kept cell at (p, j). -/
theorem pay12_apply (p j : Fin 512) :
    k0_pay12 (F := ID) x2 x3 (k0_pay3 x0) (k0_pay5 x0 x1 x4 x5 x6) x15 x16 (ix2 p j)
      = cused W (brow x0 p) (brow x1 p) (brow x2 p) (x3 (ix2 p (0 : Fin 1))) j := by
  unfold k0_pay12
  rw [mulf_apply, broadcastTo_a1_ab_apply, subf_apply, pay10_apply]
  rfl

/-- The kept cell plus the masked candidate at (p, j). -/
theorem pay13_apply (p j : Fin 512) :
    k0_pay13 (F := ID) x2 x3 (k0_pay3 x0) (k0_pay5 x0 x1 x4 x5 x6) x13 x14 x15 x16 (ix2 p j)
      = cused W (brow x0 p) (brow x1 p) (brow x2 p) (x3 (ix2 p (0 : Fin 1))) j
        + msk W (brow x0 p) (brow x1 p) (x3 (ix2 p (0 : Fin 1))) * it W (brow x0 p) j := by
  unfold k0_pay13
  rw [addf_apply, pay12_apply, mulf_apply, broadcastTo_a1_ab_apply, pay10_apply, addf_apply, mm_sq, shapeCast_self, shapeCast_self,
    ValueIdx.broadcastTo_1b_ab_apply]
  rfl

/-- The new cell at (p, j). -/
theorem pay1_apply (p j : Fin 512) :
    k0_pay1 (F := ID) (k0_pay6 x0 x1 x7 x8 x9) (k0_pay13 x2 x3 (k0_pay3 x0) (k0_pay5 x0 x1 x4 x5 x6) x13 x14 x15 x16) (ix2 p j)
      = cnew W (brow x0 p) (brow x1 p) (brow x2 p) (x3 (ix2 p (0 : Fin 1))) j := by
  unfold k0_pay1
  rw [addf_apply, pay13_apply, pay6_apply]
  rfl

end Cert.Cell.Kern

end
-- ==== Proof.KernState.lean ====
import proofs.«161454_j24919400252151_1_alg».proof.Proof.KernGate

noncomputable section

namespace Cert.Cell.Kern

open Idealize.ShloMosaic Idealize.ShloMosaic.ValueIdx Cert.KernelIdeal Cert.KernelIdeal.Gen Cert.Cell Cert.CausalRows

local notation "ID" => Idealize.ShloMosaic.Ideal

variable (x0 x1 x2 : Vec ID S512x512 .f32) (x3 : Vec ID S512x1 .f32) (x4 x5 : Vec ID S512x1 .bf16) (x6 : Vec ID S1x1 .f32)
  (x7 x8 : Vec ID S512x512 .bf16) (x9 : Vec ID S1x512 .f32) (x10 x11 : Vec ID S512x512 .bf16) (x12 : Vec ID S1x512 .f32)
  (x13 : Vec ID S512x512 .bf16) (x14 : Vec ID S1x512 .f32) (x15 : Vec ID S512x1 .bf16) (x16 : Vec ID S1x1 .f32)
  (x17 x18 : Vec ID S512x512 .bf16) (x19 : Vec ID S1x512 .f32)

local notation "W" => wblk x4 x5 x6 x7 x8 x9 x10 x11 x12 x13 x14 x15 x16 x17 x18 x19

/-- The sum of a [512, 512] block over its second axis, read at row `p`: the sum of that row's 512 entries. -/
theorem rowsum_apply (v : FVec ID S512x512 .f32) (hφ : FKind.Formats .f32)
    (hacc : (0x00000000#32 : BitVec 32) = FKind.add.neutral .f32 hφ) (p : Fin 512) :
    multiReduction .add [1] S512 v 0x00000000#32 reduces_S512x512_S512 hφ hacc (ix1 p) = ∑ k : Fin 512, v (ix2 p k) := by
  refine (Idealize.ShloMosaic.Ideal.multiReduction_add_single v 0x00000000#32 reduces_S512x512_S512 hφ hacc (ix1 p)).trans ?_
  refine Finset.sum_congr rfl fun k _ => congrArg v ?_
  funext a
  apply Fin.ext
  rw [Shape.Reduces.lift_val]
  match a with
  | ⟨0, _⟩ => rfl
  | ⟨1, _⟩ => rfl

/-- The state row scaled by the mean of the kept cell's row, at (p, k). -/
theorem sscaled_apply (v : FVec ID S512x512 .f32) (hφ : FKind.Formats .f32)
    (hacc : (0x00000000#32 : BitVec 32) = FKind.add.neutral .f32 hφ) (p k : Fin 512) :
    mulf x1 (broadcastTo S512x512 (divf (shapeCast S512x1 (multiReduction .add [1] S512 v 0x00000000#32 reduces_S512x512_S512 hφ hacc)
        shapeCasts_S512_S512x1) (broadcast S512x1 (FloatOps.ofBits (F := ID) .f32 0x44000000#32))) broadcasts_S512x1_S512x512) (ix2 p k)
      = x1 (ix2 p k) * Idealize.ShloMosaic.Ideal.div (∑ k' : Fin 512, v (ix2 p k')) n512 := by
  rw [mulf_apply, broadcastTo_a1_ab_apply, divf_apply, shapeCast_a_a1_apply, rowsum_apply]
  rfl

/-- The new state at (p, j). -/
theorem pay2_apply (p j : Fin 512) :
    k0_pay2 (F := ID) x0 x1 (k0_pay3 x0) (k0_pay8 (k0_pay4 x1) (k0_pay7 x0 x10) x11 x12)
        (k0_pay12 x2 x3 (k0_pay3 x0) (k0_pay5 x0 x1 x4 x5 x6) x15 x16) x17 x18 x19 (ix2 p j)
      = snew W (brow x0 p) (brow x1 p) (brow x2 p) (x3 (ix2 p (0 : Fin 1))) j := by
  unfold k0_pay2
  rw [logistic_apply, addf_apply, addf_apply, mulf_apply, mulf_apply, subf_apply, pay8_apply x0 x1 x4 x5 x6 x7 x8 x9 x10 x11 x12 x13 x14 x15 x16 x17 x18 x19 p j, logistic_apply, addf_apply, addf_apply,
    mm_sq, mm_sq, shapeCast_self, shapeCast_self, shapeCast_self, ValueIdx.broadcastTo_1b_ab_apply]
  have hs := fun k => sscaled_apply x1 (k0_pay12 x2 x3 (k0_pay3 x0) (k0_pay5 x0 x1 x4 x5 x6) x15 x16) (.inl rfl) rfl p k
  simp only [truncf_apply, hs, pay12_apply x0 x1 x2 x3 x4 x5 x6 x7 x8 x9 x10 x11 x12 x13 x14 x15 x16 x17 x18 x19]
  rfl

end Cert.Cell.Kern

end
-- ==== Proof.KernOut.lean ====
import proofs.«161454_j24919400252151_1_alg».proof.Proof.Gen.KernelIdeal.Frame
import proofs.«161454_j24919400252151_1_alg».proof.Proof.KernState

noncomputable section

namespace Cert.Cell.Kern

open Idealize.ShloMosaic Idealize.ShloMosaic.ValueIdx Cert.KernelIdeal Cert.KernelIdeal.Gen Cert.Cell

local notation "ID" => Idealize.ShloMosaic.Ideal

variable (x0 x1 x2 : Vec ID S512x512 .f32) (x3 : Vec ID S512x1 .f32) (x4 x5 : Vec ID S512x1 .bf16) (x6 : Vec ID S1x1 .f32)
  (x7 x8 : Vec ID S512x512 .bf16) (x9 : Vec ID S1x512 .f32) (x10 x11 : Vec ID S512x512 .bf16) (x12 : Vec ID S1x512 .f32)
  (x13 : Vec ID S512x512 .bf16) (x14 : Vec ID S1x512 .f32) (x15 : Vec ID S512x1 .bf16) (x16 : Vec ID S1x1 .f32)
  (x17 x18 : Vec ID S512x512 .bf16) (x19 : Vec ID S1x512 .f32)

local notation "W" => wblk x4 x5 x6 x7 x8 x9 x10 x11 x12 x13 x14 x15 x16 x17 x18 x19

theorem zeros2 : (![0, 0] : Fin 2 → Nat) = fun _ => 0 := funext fun a => by fin_cases a <;> rfl

/-- What the body leaves in the new-state block, at (p, j): the cell's new state for row `p` of the input blocks. -/
theorem out20_apply (p j : Fin 512) :
    out0_20 (F := ID) x0 x1 x2 x3 x4 x5 x6 x7 x8 x9 x10 x11 x12 x13 x14 x15 x16 x17 x18 x19 (ix2 p j)
      = snew W (brow x0 p) (brow x1 p) (brow x2 p) (x3 (ix2 p (0 : Fin 1))) j := by
  unfold out0_20
  rw [View.canon_unit_zero zeros2]
  simp only [View.ld_unit_zero (S := S512x512) zeros2, View.ld_unit_zero (S := S512x1) zeros2,
    View.ld_unit_zero (S := S1x1) zeros2, View.ld_unit_zero (S := S1x512) zeros2]
  exact pay2_apply x0 x1 x2 x3 x4 x5 x6 x7 x8 x9 x10 x11 x12 x13 x14 x15 x16 x17 x18 x19 p j

/-- What the body leaves in the new-cell block, at (p, j). -/
theorem out21_apply (p j : Fin 512) :
    out0_21 (F := ID) x0 x1 x2 x3 x4 x5 x6 x7 x8 x9 x10 x11 x12 x13 x14 x15 x16 x17 x18 x19 (ix2 p j)
      = cnew W (brow x0 p) (brow x1 p) (brow x2 p) (x3 (ix2 p (0 : Fin 1))) j := by
  unfold out0_21
  rw [View.canon_unit_zero zeros2]
  simp only [View.ld_unit_zero (S := S512x512) zeros2, View.ld_unit_zero (S := S512x1) zeros2,
    View.ld_unit_zero (S := S1x1) zeros2, View.ld_unit_zero (S := S1x512) zeros2]
  exact pay1_apply x0 x1 x2 x3 x4 x5 x6 x7 x8 x9 x10 x11 x12 x13 x14 x15 x16 x17 x18 x19 p j

/-- What the body leaves in the new-time block, at (p, z). -/
theorem out22_apply (p : Fin 512) (z : Fin 1) :
    out0_22 (F := ID) x0 x1 x2 x3 x4 x5 x6 x7 x8 x9 x10 x11 x12 x13 x14 x15 x16 x17 x18 x19 (ix2 p z)
      = tnew W (brow x0 p) (brow x1 p) (x3 (ix2 p (0 : Fin 1))) := by
  unfold out0_22
  rw [View.canon_unit_zero zeros2]
  simp only [View.ld_unit_zero (S := S512x512) zeros2, View.ld_unit_zero (S := S512x1) zeros2,
    View.ld_unit_zero (S := S1x1) zeros2, View.ld_unit_zero (S := S1x512) zeros2]
  exact pay11_apply x0 x1 x3 x4 x5 x6 x7 x8 x9 x10 x11 x12 x13 x14 x15 x16 x17 x18 x19 p z

end Cert.Cell.Kern

end
-- ==== Proof.BlockReads.lean ====
import proofs.«161454_j24919400252151_1_alg».proof.Proof.Gen.KernelIdeal.Value
import proofs.«161454_j24919400252151_1_alg».proof.Proof.HostSide
import proofs.«161454_j24919400252151_1_alg».proof.Proof.KernOut

noncomputable section

namespace Cert.Cell.Blocks

open Idealize.ShloMosaic Idealize.ShloMosaic.ValueIdx Idealize.ShloMosaic.TcCoe Idealize.SL.Sem
open Cert.KernelIdeal Cert.KernelIdeal.Gen Cert.Cell Cert.Cell.Kern
open Idealize.ShloMosaic.Pipeline (Dat)

local notation "ID" => Idealize.ShloMosaic.Ideal

variable (m : (ℓ : Loc nD τ sig) → Buf (Elt ID) ℓ) (c : Dev nD)

/-- The grid has 32 points; point `t` takes rows 512·t … 512·t + 511 of each batch array (block index `(t, 0)`). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_20.index t (0 : Fin 2) = t.val ∧ win0_20.index t (1 : Fin 2) = 0
    ∧ win0_21.index t (0 : Fin 2) = t.val ∧ win0_21.index t (1 : Fin 2) = 0
    ∧ win0_22.index t (0 : Fin 2) = t.val ∧ win0_22.index t (1 : Fin 2) = 0 :=
  (by decide +kernel : ∀ t : Fin grid0.N, _)

/-- Every weight window stays on block `(0, 0)`: its one block is its whole array. -/
theorem idx_weights : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0 :=
  (by decide +kernel : ∀ t : Fin grid0.N, _)

/-- The batch row that row `p` of point `t`'s block is. -/
def brw (t : Fin cfg0.N) (p : Fin 512) : Fin 16384 :=
  ⟨t.val * 512 + p.val, by
    have ht : t.val < 32 := lt_of_lt_of_eq t.isLt (N_0 : cfg0.N = 32)
    have := p.isLt; omega⟩

/-- Row `p` of point `t`'s block of input window 0 is batch row 512·t + p of its array. -/
theorem iblk0_apply (t : Fin cfg0.N) (p : Fin 512) (k : Fin 512) :
    iblk m c 0 t (ix2 p k : S512x512.Idx) = (m ((c : Thread nD τ).loc main_arg0) : S16384x512.Idx → EReal) (ix2 (brw t p) k) := by
  show V m c main_arg0 (((cfg0.win 0).blk t).view.emb (ix2 p k : S512x512.Idx)) = _
  rw [V_main_arg0]
  refine congrArg _ ?_
  obtain ⟨e0, e1, e2, e3, e4, e5, e6, e7, e8, e9, e10, e11, e12, e13⟩ := idx_rows t
  funext a; apply Fin.ext
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

/-- Row `p` of point `t`'s block of input window 1 is batch row 512·t + p of its array. -/
theorem iblk1_apply (t : Fin cfg0.N) (p : Fin 512) (k : Fin 512) :
    iblk m c 1 t (ix2 p k : S512x512.Idx) = (m ((c : Thread nD τ).loc main_arg1) : S16384x512.Idx → EReal) (ix2 (brw t p) k) := by
  show V m c main_arg1 (((cfg0.win 1).blk t).view.emb (ix2 p k : S512x512.Idx)) = _
  rw [V_main_arg1]
  refine congrArg _ ?_
  obtain ⟨e0, e1, e2, e3, e4, e5, e6, e7, e8, e9, e10, e11, e12, e13⟩ := idx_rows t
  funext a; apply Fin.ext
  match a with
  | ⟨0, _⟩ => show win0_1.index t (0 : Fin 2) * 512 + 1 * p.val = t.val * 512 + p.val; rw [e2]; omega
  | ⟨1, _⟩ => show win0_1.index t (1 : Fin 2) * 512 + 1 * k.val = k.val; rw [e3]; omega

/-- Row `p` of point `t`'s block of input window 2 is batch row 512·t + p of its array. -/
theorem iblk2_apply (t : Fin cfg0.N) (p : Fin 512) (k : Fin 512) :
    iblk m c 2 t (ix2 p k : S512x512.Idx) = (m ((c : Thread nD τ).loc main_arg2) : S16384x512.Idx → EReal) (ix2 (brw t p) k) := by
  show V m c main_arg2 (((cfg0.win 2).blk t).view.emb (ix2 p k : S512x512.Idx)) = _
  rw [V_main_arg2]
  refine congrArg _ ?_
  obtain ⟨e0, e1, e2, e3, e4, e5, e6, e7, e8, e9, e10, e11, e12, e13⟩ := idx_rows t
  funext a; apply Fin.ext
  match a with
  | ⟨0, _⟩ => show win0_2.index t (0 : Fin 2) * 512 + 1 * p.val = t.val * 512 + p.val; rw [e4]; omega
  | ⟨1, _⟩ => show win0_2.index t (1 : Fin 2) * 512 + 1 * k.val = k.val; rw [e5]; omega

/-- Row `p` of point `t`'s block of input window 3 is batch row 512·t + p of its array. -/
theorem iblk3_apply (t : Fin cfg0.N) (p : Fin 512) (k : Fin 1) :
    iblk m c 3 t (ix2 p k : S512x1.Idx) = (m ((c : Thread nD τ).loc main_arg3) : S16384x1.Idx → EReal) (ix2 (brw t p) k) := by
  show V m c main_arg3 (((cfg0.win 3).blk t).view.emb (ix2 p k : S512x1.Idx)) = _
  rw [V_main_arg3]
  refine congrArg _ ?_
  obtain ⟨e0, e1, e2, e3, e4, e5, e6, e7, e8, e9, e10, e11, e12, e13⟩ := idx_rows t
  funext a; apply Fin.ext
  match a with
  | ⟨0, _⟩ => show win0_3.index t (0 : Fin 2) * 512 + 1 * p.val = t.val * 512 + p.val; rw [e6]; omega
  | ⟨1, _⟩ => show win0_3.index t (1 : Fin 2) * 1 + 1 * k.val = k.val; rw [e7]; omega

theorem iblk4_emb (t : Fin cfg0.N) (k : Fin 512) (z : Fin 1) :
    ((cfg0.win 4).blk t).view.emb (ix2 k z : S512x1.Idx) = (ix2 k z : S512x1.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_4.index t (0 : Fin 2) * 512 + 1 * k.val = k.val; rw [f0]; omega
  | ⟨1, _⟩ => show win0_4.index t (1 : Fin 2) * 1 + 1 * z.val = z.val; rw [f1]; omega

theorem iblk5_emb (t : Fin cfg0.N) (k : Fin 512) (z : Fin 1) :
    ((cfg0.win 5).blk t).view.emb (ix2 k z : S512x1.Idx) = (ix2 k z : S512x1.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_5.index t (0 : Fin 2) * 512 + 1 * k.val = k.val; rw [f2]; omega
  | ⟨1, _⟩ => show win0_5.index t (1 : Fin 2) * 1 + 1 * z.val = z.val; rw [f3]; omega

theorem iblk6_emb (t : Fin cfg0.N) (u : Fin 1) (z : Fin 1) :
    ((cfg0.win 6).blk t).view.emb (ix2 u z : S1x1.Idx) = (ix2 u z : S1x1.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_6.index t (0 : Fin 2) * 1 + 1 * u.val = u.val; rw [f4]; omega
  | ⟨1, _⟩ => show win0_6.index t (1 : Fin 2) * 1 + 1 * z.val = z.val; rw [f5]; omega

theorem iblk7_emb (t : Fin cfg0.N) (k : Fin 512) (j : Fin 512) :
    ((cfg0.win 7).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_7.index t (0 : Fin 2) * 512 + 1 * k.val = k.val; rw [f6]; omega
  | ⟨1, _⟩ => show win0_7.index t (1 : Fin 2) * 512 + 1 * j.val = j.val; rw [f7]; omega

theorem iblk8_emb (t : Fin cfg0.N) (k : Fin 512) (j : Fin 512) :
    ((cfg0.win 8).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_8.index t (0 : Fin 2) * 512 + 1 * k.val = k.val; rw [f8]; omega
  | ⟨1, _⟩ => show win0_8.index t (1 : Fin 2) * 512 + 1 * j.val = j.val; rw [f9]; omega

theorem iblk9_emb (t : Fin cfg0.N) (u : Fin 1) (j : Fin 512) :
    ((cfg0.win 9).blk t).view.emb (ix2 u j : S1x512.Idx) = (ix2 u j : S1x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_9.index t (0 : Fin 2) * 1 + 1 * u.val = u.val; rw [f10]; omega
  | ⟨1, _⟩ => show win0_9.index t (1 : Fin 2) * 512 + 1 * j.val = j.val; rw [f11]; omega

theorem iblk10_emb (t : Fin cfg0.N) (k : Fin 512) (j : Fin 512) :
    ((cfg0.win 10).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_10.index t (0 : Fin 2) * 512 + 1 * k.val = k.val; rw [f12]; omega
  | ⟨1, _⟩ => show win0_10.index t (1 : Fin 2) * 512 + 1 * j.val = j.val; rw [f13]; omega

theorem iblk11_emb (t : Fin cfg0.N) (k : Fin 512) (j : Fin 512) :
    ((cfg0.win 11).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_11.index t (0 : Fin 2) * 512 + 1 * k.val = k.val; rw [f14]; omega
  | ⟨1, _⟩ => show win0_11.index t (1 : Fin 2) * 512 + 1 * j.val = j.val; rw [f15]; omega

theorem iblk12_emb (t : Fin cfg0.N) (u : Fin 1) (j : Fin 512) :
    ((cfg0.win 12).blk t).view.emb (ix2 u j : S1x512.Idx) = (ix2 u j : S1x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_12.index t (0 : Fin 2) * 1 + 1 * u.val = u.val; rw [f16]; omega
  | ⟨1, _⟩ => show win0_12.index t (1 : Fin 2) * 512 + 1 * j.val = j.val; rw [f17]; omega

theorem iblk13_emb (t : Fin cfg0.N) (k : Fin 512) (j : Fin 512) :
    ((cfg0.win 13).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_13.index t (0 : Fin 2) * 512 + 1 * k.val = k.val; rw [f18]; omega
  | ⟨1, _⟩ => show win0_13.index t (1 : Fin 2) * 512 + 1 * j.val = j.val; rw [f19]; omega

theorem iblk14_emb (t : Fin cfg0.N) (u : Fin 1) (j : Fin 512) :
    ((cfg0.win 14).blk t).view.emb (ix2 u j : S1x512.Idx) = (ix2 u j : S1x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_14.index t (0 : Fin 2) * 1 + 1 * u.val = u.val; rw [f20]; omega
  | ⟨1, _⟩ => show win0_14.index t (1 : Fin 2) * 512 + 1 * j.val = j.val; rw [f21]; omega

theorem iblk15_emb (t : Fin cfg0.N) (k : Fin 512) (z : Fin 1) :
    ((cfg0.win 15).blk t).view.emb (ix2 k z : S512x1.Idx) = (ix2 k z : S512x1.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_15.index t (0 : Fin 2) * 512 + 1 * k.val = k.val; rw [f22]; omega
  | ⟨1, _⟩ => show win0_15.index t (1 : Fin 2) * 1 + 1 * z.val = z.val; rw [f23]; omega

theorem iblk16_emb (t : Fin cfg0.N) (u : Fin 1) (z : Fin 1) :
    ((cfg0.win 16).blk t).view.emb (ix2 u z : S1x1.Idx) = (ix2 u z : S1x1.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_16.index t (0 : Fin 2) * 1 + 1 * u.val = u.val; rw [f24]; omega
  | ⟨1, _⟩ => show win0_16.index t (1 : Fin 2) * 1 + 1 * z.val = z.val; rw [f25]; omega

theorem iblk17_emb (t : Fin cfg0.N) (k : Fin 512) (j : Fin 512) :
    ((cfg0.win 17).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_17.index t (0 : Fin 2) * 512 + 1 * k.val = k.val; rw [f26]; omega
  | ⟨1, _⟩ => show win0_17.index t (1 : Fin 2) * 512 + 1 * j.val = j.val; rw [f27]; omega

theorem iblk18_emb (t : Fin cfg0.N) (k : Fin 512) (j : Fin 512) :
    ((cfg0.win 18).blk t).view.emb (ix2 k j : S512x512.Idx) = (ix2 k j : S512x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_18.index t (0 : Fin 2) * 512 + 1 * k.val = k.val; rw [f28]; omega
  | ⟨1, _⟩ => show win0_18.index t (1 : Fin 2) * 512 + 1 * j.val = j.val; rw [f29]; omega

theorem iblk19_emb (t : Fin cfg0.N) (u : Fin 1) (j : Fin 512) :
    ((cfg0.win 19).blk t).view.emb (ix2 u j : S1x512.Idx) = (ix2 u j : S1x512.Idx) := by
  obtain ⟨f0, f1, f2, f3, f4, f5, f6, f7, f8, f9, f10, f11, f12, f13, f14, f15, f16, f17, f18, f19, f20, f21, f22, f23, f24, f25, f26, f27, f28, f29, f30, f31⟩ := idx_weights t
  funext a; apply Fin.ext
  match a with
  | ⟨0, _⟩ => show win0_19.index t (0 : Fin 2) * 1 + 1 * u.val = u.val; rw [f30]; omega
  | ⟨1, _⟩ => show win0_19.index t (1 : Fin 2) * 512 + 1 * j.val = j.val; rw [f31]; omega

/-- Weight window 4's block is its whole array. -/
theorem iblk4_V (t : Fin cfg0.N) (k : Fin 512) (z : Fin 1) :
    iblk m c 4 t (ix2 k z : S512x1.Idx) = (V m c main_v2 : S512x1.Idx → EReal) (ix2 k z) := by
  show V m c main_v2 (((cfg0.win 4).blk t).view.emb (ix2 k z : S512x1.Idx)) = _
  rw [iblk4_emb]

/-- Weight window 5's block is its whole array. -/
theorem iblk5_V (t : Fin cfg0.N) (k : Fin 512) (z : Fin 1) :
    iblk m c 5 t (ix2 k z : S512x1.Idx) = (V m c main_v3 : S512x1.Idx → EReal) (ix2 k z) := by
  show V m c main_v3 (((cfg0.win 5).blk t).view.emb (ix2 k z : S512x1.Idx)) = _
  rw [iblk5_emb]

/-- Weight window 6's block is its whole array. -/
theorem iblk6_V (t : Fin cfg0.N) (u : Fin 1) (z : Fin 1) :
    iblk m c 6 t (ix2 u z : S1x1.Idx) = (V m c main_v20 : S1x1.Idx → EReal) (ix2 u z) := by
  show V m c main_v20 (((cfg0.win 6).blk t).view.emb (ix2 u z : S1x1.Idx)) = _
  rw [iblk6_emb]

/-- Weight window 7's block is its whole array. -/
theorem iblk7_V (t : Fin cfg0.N) (k : Fin 512) (j : Fin 512) :
    iblk m c 7 t (ix2 k j : S512x512.Idx) = (V m c main_v6 : S512x512.Idx → EReal) (ix2 k j) := by
  show V m c main_v6 (((cfg0.win 7).blk t).view.emb (ix2 k j : S512x512.Idx)) = _
  rw [iblk7_emb]

/-- Weight window 8's block is its whole array. -/
theorem iblk8_V (t : Fin cfg0.N) (k : Fin 512) (j : Fin 512) :
    iblk m c 8 t (ix2 k j : S512x512.Idx) = (V m c main_v7 : S512x512.Idx → EReal) (ix2 k j) := by
  show V m c main_v7 (((cfg0.win 8).blk t).view.emb (ix2 k j : S512x512.Idx)) = _
  rw [iblk8_emb]

/-- Weight window 9's block is its whole array. -/
theorem iblk9_V (t : Fin cfg0.N) (u : Fin 1) (j : Fin 512) :
    iblk m c 9 t (ix2 u j : S1x512.Idx) = (V m c main_v21 : S1x512.Idx → EReal) (ix2 u j) := by
  show V m c main_v21 (((cfg0.win 9).blk t).view.emb (ix2 u j : S1x512.Idx)) = _
  rw [iblk9_emb]

/-- Weight window 10's block is its whole array. -/
theorem iblk10_V (t : Fin cfg0.N) (k : Fin 512) (j : Fin 512) :
    iblk m c 10 t (ix2 k j : S512x512.Idx) = (V m c main_v10 : S512x512.Idx → EReal) (ix2 k j) := by
  show V m c main_v10 (((cfg0.win 10).blk t).view.emb (ix2 k j : S512x512.Idx)) = _
  rw [iblk10_emb]

/-- Weight window 11's block is its whole array. -/
theorem iblk11_V (t : Fin cfg0.N) (k : Fin 512) (j : Fin 512) :
    iblk m c 11 t (ix2 k j : S512x512.Idx) = (V m c main_v11 : S512x512.Idx → EReal) (ix2 k j) := by
  show V m c main_v11 (((cfg0.win 11).blk t).view.emb (ix2 k j : S512x512.Idx)) = _
  rw [iblk11_emb]

/-- Weight window 12's block is its whole array. -/
theorem iblk12_V (t : Fin cfg0.N) (u : Fin 1) (j : Fin 512) :
    iblk m c 12 t (ix2 u j : S1x512.Idx) = (V m c main_v22 : S1x512.Idx → EReal) (ix2 u j) := by
  show V m c main_v22 (((cfg0.win 12).blk t).view.emb (ix2 u j : S1x512.Idx)) = _
  rw [iblk12_emb]

/-- Weight window 13's block is its whole array. -/
theorem iblk13_V (t : Fin cfg0.N) (k : Fin 512) (j : Fin 512) :
    iblk m c 13 t (ix2 k j : S512x512.Idx) = (V m c main_v17 : S512x512.Idx → EReal) (ix2 k j) := by
  show V m c main_v17 (((cfg0.win 13).blk t).view.emb (ix2 k j : S512x512.Idx)) = _
  rw [iblk13_emb]

/-- Weight window 14's block is its whole array. -/
theorem iblk14_V (t : Fin cfg0.N) (u : Fin 1) (j : Fin 512) :
    iblk m c 14 t (ix2 u j : S1x512.Idx) = (V m c main_v23 : S1x512.Idx → EReal) (ix2 u j) := by
  show V m c main_v23 (((cfg0.win 14).blk t).view.emb (ix2 u j : S1x512.Idx)) = _
  rw [iblk14_emb]

/-- Weight window 15's block is its whole array. -/
theorem iblk15_V (t : Fin cfg0.N) (k : Fin 512) (z : Fin 1) :
    iblk m c 15 t (ix2 k z : S512x1.Idx) = (V m c main_v19 : S512x1.Idx → EReal) (ix2 k z) := by
  show V m c main_v19 (((cfg0.win 15).blk t).view.emb (ix2 k z : S512x1.Idx)) = _
  rw [iblk15_emb]

/-- Weight window 16's block is its whole array. -/
theorem iblk16_V (t : Fin cfg0.N) (u : Fin 1) (z : Fin 1) :
    iblk m c 16 t (ix2 u z : S1x1.Idx) = (V m c main_v24 : S1x1.Idx → EReal) (ix2 u z) := by
  show V m c main_v24 (((cfg0.win 16).blk t).view.emb (ix2 u z : S1x1.Idx)) = _
  rw [iblk16_emb]

/-- Weight window 17's block is its whole array. -/
theorem iblk17_V (t : Fin cfg0.N) (k : Fin 512) (j : Fin 512) :
    iblk m c 17 t (ix2 k j : S512x512.Idx) = (V m c main_v14 : S512x512.Idx → EReal) (ix2 k j) := by
  show V m c main_v14 (((cfg0.win 17).blk t).view.emb (ix2 k j : S512x512.Idx)) = _
  rw [iblk17_emb]

/-- Weight window 18's block is its whole array. -/
theorem iblk18_V (t : Fin cfg0.N) (k : Fin 512) (j : Fin 512) :
    iblk m c 18 t (ix2 k j : S512x512.Idx) = (V m c main_v15 : S512x512.Idx → EReal) (ix2 k j) := by
  show V m c main_v15 (((cfg0.win 18).blk t).view.emb (ix2 k j : S512x512.Idx)) = _
  rw [iblk18_emb]

/-- Weight window 19's block is its whole array. -/
theorem iblk19_V (t : Fin cfg0.N) (u : Fin 1) (j : Fin 512) :
    iblk m c 19 t (ix2 u j : S1x512.Idx) = (V m c main_v25 : S1x512.Idx → EReal) (ix2 u j) := by
  show V m c main_v25 (((cfg0.win 19).blk t).view.emb (ix2 u j : S1x512.Idx)) = _
  rw [iblk19_emb]

/-- Entry (p, j) of point `t`'s block of output window 20 is entry (512·t + p, j) of its array. -/
theorem oblk20_emb (t : Fin cfg0.N) (p : Fin 512) (j : Fin 512) :
    ((cfg0.win 20).blk t).view.emb (ix2 p j : S512x512.Idx) = (ix2 (brw t p) j : S16384x512.Idx) := by
  obtain ⟨e0, e1, e2, e3, e4, e5, e6, e7, e8, e9, e10, e11, e12, e13⟩ := idx_rows t
  funext a; apply Fin.ext
  match a with
  | ⟨0, _⟩ => show win0_20.index t (0 : Fin 2) * 512 + 1 * p.val = t.val * 512 + p.val; rw [e8]; omega
  | ⟨1, _⟩ => show win0_20.index t (1 : Fin 2) * 512 + 1 * j.val = j.val; rw [e9]; omega

/-- Entry (p, j) of point `t`'s block of output window 21 is entry (512·t + p, j) of its array. -/
theorem oblk21_emb (t : Fin cfg0.N) (p : Fin 512) (j : Fin 512) :
    ((cfg0.win 21).blk t).view.emb (ix2 p j : S512x512.Idx) = (ix2 (brw t p) j : S16384x512.Idx) := by
  obtain ⟨e0, e1, e2, e3, e4, e5, e6, e7, e8, e9, e10, e11, e12, e13⟩ := idx_rows t
  funext a; apply Fin.ext
  match a with
  | ⟨0, _⟩ => show win0_21.index t (0 : Fin 2) * 512 + 1 * p.val = t.val * 512 + p.val; rw [e10]; omega
  | ⟨1, _⟩ => show win0_21.index t (1 : Fin 2) * 512 + 1 * j.val = j.val; rw [e11]; omega

/-- Entry (p, j) of point `t`'s block of output window 22 is entry (512·t + p, j) of its array. -/
theorem oblk22_emb (t : Fin cfg0.N) (p : Fin 512) (j : Fin 1) :
    ((cfg0.win 22).blk t).view.emb (ix2 p j : S512x1.Idx) = (ix2 (brw t p) j : S16384x1.Idx) := by
  obtain ⟨e0, e1, e2, e3, e4, e5, e6, e7, e8, e9, e10, e11, e12, e13⟩ := idx_rows t
  funext a; apply Fin.ext
  match a with
  | ⟨0, _⟩ => show win0_22.index t (0 : Fin 2) * 512 + 1 * p.val = t.val * 512 + p.val; rw [e12]; omega
  | ⟨1, _⟩ => show win0_22.index t (1 : Fin 2) * 1 + 1 * j.val = j.val; rw [e13]; omega

/-- The weights the sixteen resident blocks hold are the weights read off the argument arrays. -/
theorem wblk_eq (t : Fin cfg0.N) :
    wblk (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
      = weights (m ((c : Thread nD τ).loc main_arg4) : S1x1024.Idx → EReal)
          (m ((c : Thread nD τ).loc main_arg5) : S1.Idx → EReal)
          (m ((c : Thread nD τ).loc main_arg6) : S512x1024.Idx → EReal)
          (m ((c : Thread nD τ).loc main_arg7) : S512.Idx → EReal)
          (m ((c : Thread nD τ).loc main_arg8) : S512x1024.Idx → EReal)
          (m ((c : Thread nD τ).loc main_arg9) : S512.Idx → EReal)
          (m ((c : Thread nD τ).loc main_arg10) : S512x512.Idx → EReal)
          (m ((c : Thread nD τ).loc main_arg11) : S512.Idx → EReal)
          (m ((c : Thread nD τ).loc main_arg12) : S1x512.Idx → EReal)
          (m ((c : Thread nD τ).loc main_arg13) : S1.Idx → EReal)
          (m ((c : Thread nD τ).loc main_arg14) : S512x1024.Idx → EReal)
          (m ((c : Thread nD τ).loc main_arg15) : S512.Idx → EReal) := by
  unfold wblk weights
  simp only [iblk4_V m c t, iblk5_V m c t, iblk6_V m c t, iblk7_V m c t, iblk8_V m c t, iblk9_V m c t, iblk10_V m c t, iblk11_V m c t, iblk12_V m c t, iblk13_V m c t, iblk14_V m c t, iblk15_V m c t, iblk16_V m c t, iblk17_V m c t, iblk18_V m c t, iblk19_V m c t,
    Host.V_main_v2_apply m c, Host.V_main_v3_apply m c, Host.V_main_v20_apply m c, Host.V_main_v6_apply m c, Host.V_main_v7_apply m c, Host.V_main_v21_apply m c, Host.V_main_v10_apply m c, Host.V_main_v11_apply m c, Host.V_main_v22_apply m c, Host.V_main_v17_apply m c, Host.V_main_v23_apply m c, Host.V_main_v19_apply m c, Host.V_main_v24_apply m c, Host.V_main_v14_apply m c, Host.V_main_v15_apply m c, Host.V_main_v25_apply m c]

end Cert.Cell.Blocks

end
-- ==== Proof.Final.lean ====
import proofs.«161454_j24919400252151_1_alg».proof.Proof.BlockReads

noncomputable section

namespace Cert.Cell.Blocks

open Idealize.ShloMosaic Idealize.ShloMosaic.ValueIdx Idealize.ShloMosaic.TcCoe Idealize.SL.Sem
open Cert.KernelIdeal Cert.KernelIdeal.Gen Cert.Cell Cert.Cell.Kern
open Idealize.ShloMosaic.Pipeline (Dat)

local notation "ID" => Idealize.ShloMosaic.Ideal

variable (m : (ℓ : Loc nD τ sig) → Buf (Elt ID) ℓ) (ρ : Dev nD → PrngReg) (c : Dev nD)

/-- The three results as functions of core `c`'s argument arrays. -/
def stateOf : S16384x512.Idx → EReal := newState (m ((c : Thread nD τ).loc main_arg0) : S16384x512.Idx → EReal) (m ((c : Thread nD τ).loc main_arg1) : S16384x512.Idx → EReal) (m ((c : Thread nD τ).loc main_arg2) : S16384x512.Idx → EReal) (m ((c : Thread nD τ).loc main_arg3) : S16384x1.Idx → EReal)
    (weights (m ((c : Thread nD τ).loc main_arg4) : S1x1024.Idx → EReal) (m ((c : Thread nD τ).loc main_arg5) : S1.Idx → EReal) (m ((c : Thread nD τ).loc main_arg6) : S512x1024.Idx → EReal) (m ((c : Thread nD τ).loc main_arg7) : S512.Idx → EReal) (m ((c : Thread nD τ).loc main_arg8) : S512x1024.Idx → EReal) (m ((c : Thread nD τ).loc main_arg9) : S512.Idx → EReal) (m ((c : Thread nD τ).loc main_arg10) : S512x512.Idx → EReal) (m ((c : Thread nD τ).loc main_arg11) : S512.Idx → EReal) (m ((c : Thread nD τ).loc main_arg12) : S1x512.Idx → EReal) (m ((c : Thread nD τ).loc main_arg13) : S1.Idx → EReal) (m ((c : Thread nD τ).loc main_arg14) : S512x1024.Idx → EReal) (m ((c : Thread nD τ).loc main_arg15) : S512.Idx → EReal))
def cellOf : S16384x512.Idx → EReal := newCell (m ((c : Thread nD τ).loc main_arg0) : S16384x512.Idx → EReal) (m ((c : Thread nD τ).loc main_arg1) : S16384x512.Idx → EReal) (m ((c : Thread nD τ).loc main_arg2) : S16384x512.Idx → EReal) (m ((c : Thread nD τ).loc main_arg3) : S16384x1.Idx → EReal)
    (weights (m ((c : Thread nD τ).loc main_arg4) : S1x1024.Idx → EReal) (m ((c : Thread nD τ).loc main_arg5) : S1.Idx → EReal) (m ((c : Thread nD τ).loc main_arg6) : S512x1024.Idx → EReal) (m ((c : Thread nD τ).loc main_arg7) : S512.Idx → EReal) (m ((c : Thread nD τ).loc main_arg8) : S512x1024.Idx → EReal) (m ((c : Thread nD τ).loc main_arg9) : S512.Idx → EReal) (m ((c : Thread nD τ).loc main_arg10) : S512x512.Idx → EReal) (m ((c : Thread nD τ).loc main_arg11) : S512.Idx → EReal) (m ((c : Thread nD τ).loc main_arg12) : S1x512.Idx → EReal) (m ((c : Thread nD τ).loc main_arg13) : S1.Idx → EReal) (m ((c : Thread nD τ).loc main_arg14) : S512x1024.Idx → EReal) (m ((c : Thread nD τ).loc main_arg15) : S512.Idx → EReal))
def timeOf : S16384x1.Idx → EReal := newTime (m ((c : Thread nD τ).loc main_arg0) : S16384x512.Idx → EReal) (m ((c : Thread nD τ).loc main_arg1) : S16384x512.Idx → EReal) (m ((c : Thread nD τ).loc main_arg3) : S16384x1.Idx → EReal)
    (weights (m ((c : Thread nD τ).loc main_arg4) : S1x1024.Idx → EReal) (m ((c : Thread nD τ).loc main_arg5) : S1.Idx → EReal) (m ((c : Thread nD τ).loc main_arg6) : S512x1024.Idx → EReal) (m ((c : Thread nD τ).loc main_arg7) : S512.Idx → EReal) (m ((c : Thread nD τ).loc main_arg8) : S512x1024.Idx → EReal) (m ((c : Thread nD τ).loc main_arg9) : S512.Idx → EReal) (m ((c : Thread nD τ).loc main_arg10) : S512x512.Idx → EReal) (m ((c : Thread nD τ).loc main_arg11) : S512.Idx → EReal) (m ((c : Thread nD τ).loc main_arg12) : S1x512.Idx → EReal) (m ((c : Thread nD τ).loc main_arg13) : S1.Idx → EReal) (m ((c : Thread nD τ).loc main_arg14) : S512x1024.Idx → EReal) (m ((c : Thread nD τ).loc main_arg15) : S512.Idx → EReal))

/-- The rows of point `t`'s input blocks are batch rows of the arrays. -/
theorem brow0 (t : Fin cfg0.N) (p : Fin 512) : brow (iblk m c 0 t) p = row (m ((c : Thread nD τ).loc main_arg0) : S16384x512.Idx → EReal) (brw t p) :=
  funext fun k => iblk0_apply m c t p k
theorem brow1 (t : Fin cfg0.N) (p : Fin 512) : brow (iblk m c 1 t) p = row (m ((c : Thread nD τ).loc main_arg1) : S16384x512.Idx → EReal) (brw t p) :=
  funext fun k => iblk1_apply m c t p k
theorem brow2 (t : Fin cfg0.N) (p : Fin 512) : brow (iblk m c 2 t) p = row (m ((c : Thread nD τ).loc main_arg2) : S16384x512.Idx → EReal) (brw t p) :=
  funext fun k => iblk2_apply m c t p k

/-- What point `t` writes back to the new-state array is block `t` of the new state. -/
theorem flushed20_eq (t : Fin cfg0.N) :
    (dats m 0 c).flushed 20 t = ((cfg0.win 20).blk t).view.read (Elt ID) (stateOf m c) := by
  rw [Cert.KernelIdeal.Value.flushed20]
  funext y
  obtain ⟨p, j, rfl⟩ : ∃ (p j : Fin 512), y = (ix2 p j : S512x512.Idx) := ⟨y 0, y 1, @eq_ix2 512 512 y⟩
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p j : S512x512.Idx) = stateOf m c (((cfg0.win 20).blk t).view.emb (ix2 p j : S512x512.Idx))
  rw [oblk20_emb]
  refine (out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p j).trans ?_
  rw [wblk_eq m c t, brow0, brow1, brow2, iblk3_apply m c t p (0 : Fin 1)]
  rfl

/-- What point `t` writes back to the new-cell array is block `t` of the new cell. -/
theorem flushed21_eq (t : Fin cfg0.N) :
    (dats m 0 c).flushed 21 t = ((cfg0.win 21).blk t).view.read (Elt ID) (cellOf m c) := by
  rw [Cert.KernelIdeal.Value.flushed21]
  funext y
  obtain ⟨p, j, rfl⟩ : ∃ (p j : Fin 512), y = (ix2 p j : S512x512.Idx) := ⟨y 0, y 1, @eq_ix2 512 512 y⟩
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p j : S512x512.Idx) = cellOf m c (((cfg0.win 21).blk t).view.emb (ix2 p j : S512x512.Idx))
  rw [oblk21_emb]
  refine (out21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p j).trans ?_
  rw [wblk_eq m c t, brow0, brow1, brow2, iblk3_apply m c t p (0 : Fin 1)]
  rfl

/-- What point `t` writes back to the new-time array is block `t` of the new time column. -/
theorem flushed22_eq (t : Fin cfg0.N) :
    (dats m 0 c).flushed 22 t = ((cfg0.win 22).blk t).view.read (Elt ID) (timeOf m c) := by
  rw [Cert.KernelIdeal.Value.flushed22]
  funext y
  obtain ⟨p, z, rfl⟩ : ∃ (p : Fin 512) (z : Fin 1), y = (ix2 p z : S512x1.Idx) := ⟨y 0, y 1, @eq_ix2 512 1 y⟩
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p z : S512x1.Idx) = timeOf m c (((cfg0.win 22).blk t).view.emb (ix2 p z : S512x1.Idx))
  rw [oblk22_emb]
  refine (out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p z).trans ?_
  rw [wblk_eq m c t, brow0, brow1, iblk3_apply m c t p (0 : Fin 1)]
  rfl

/-- An index of the array lies in point `t`'s block of output window 20 iff each coordinate lies in the block's range. -/
theorem mem_blk20 (t : Fin cfg0.N) (i : S16384x512.Idx) :
    i ∈ ((cfg0.win 20).blk t).view.set ↔ ∀ a : Fin 2, win0_20.index t a * S512x512.size a ≤ (i a).val ∧ (i a).val < win0_20.index t a * S512x512.size a + S512x512.size a := by
  show i ∈ ((View.whole main_v26_0).slice (win0_20.rect t)).set ↔ _
  rw [View.set_slice_whole, Rect.mem_set_unit]
  exact Iff.rfl

/-- The 32 blocks of output window 20 tile its array: row r is in the block of point r / 512. -/
theorem cover20 (i : S16384x512.Idx) :
    ∃ t : Fin cfg0.N, (cfg0.win 20).flush t = true ∧ i ∈ ((cfg0.win 20).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, by rw [show cfg0.N = 32 from N_0]; omega⟩, rfl⟩
  refine ⟨t, flush0_20 t, ?_⟩
  obtain ⟨e0, e1, e2, e3, e4, e5, e6, e7, e8, e9, e10, e11, e12, e13⟩ := idx_rows t
  rw [mem_blk20]
  intro a
  match a with
  | ⟨0, _⟩ => show win0_20.index t (0 : Fin 2) * 512 ≤ (i 0).val ∧ (i 0).val < win0_20.index t (0 : Fin 2) * 512 + 512; rw [e8, ht]; omega
  | ⟨1, _⟩ => show win0_20.index t (1 : Fin 2) * 512 ≤ (i 1).val ∧ (i 1).val < win0_20.index t (1 : Fin 2) * 512 + 512; rw [e9]; omega

/-- An index of the array lies in point `t`'s block of output window 21 iff each coordinate lies in the block's range. -/
theorem mem_blk21 (t : Fin cfg0.N) (i : S16384x512.Idx) :
    i ∈ ((cfg0.win 21).blk t).view.set ↔ ∀ a : Fin 2, win0_21.index t a * S512x512.size a ≤ (i a).val ∧ (i a).val < win0_21.index t a * S512x512.size a + S512x512.size a := by
  show i ∈ ((View.whole main_v26_1).slice (win0_21.rect t)).set ↔ _
  rw [View.set_slice_whole, Rect.mem_set_unit]
  exact Iff.rfl

/-- The 32 blocks of output window 21 tile its array: row r is in the block of point r / 512. -/
theorem cover21 (i : S16384x512.Idx) :
    ∃ t : Fin cfg0.N, (cfg0.win 21).flush t = true ∧ i ∈ ((cfg0.win 21).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, by rw [show cfg0.N = 32 from N_0]; omega⟩, rfl⟩
  refine ⟨t, flush0_21 t, ?_⟩
  obtain ⟨e0, e1, e2, e3, e4, e5, e6, e7, e8, e9, e10, e11, e12, e13⟩ := idx_rows t
  rw [mem_blk21]
  intro a
  match a with
  | ⟨0, _⟩ => show win0_21.index t (0 : Fin 2) * 512 ≤ (i 0).val ∧ (i 0).val < win0_21.index t (0 : Fin 2) * 512 + 512; rw [e10, ht]; omega
  | ⟨1, _⟩ => show win0_21.index t (1 : Fin 2) * 512 ≤ (i 1).val ∧ (i 1).val < win0_21.index t (1 : Fin 2) * 512 + 512; rw [e11]; omega

/-- An index of the array lies in point `t`'s block of output window 22 iff each coordinate lies in the block's range. -/
theorem mem_blk22 (t : Fin cfg0.N) (i : S16384x1.Idx) :
    i ∈ ((cfg0.win 22).blk t).view.set ↔ ∀ a : Fin 2, win0_22.index t a * S512x1.size a ≤ (i a).val ∧ (i a).val < win0_22.index t a * S512x1.size a + S512x1.size a := by
  show i ∈ ((View.whole main_v26_2).slice (win0_22.rect t)).set ↔ _
  rw [View.set_slice_whole, Rect.mem_set_unit]
  exact Iff.rfl

/-- The 32 blocks of output window 22 tile its array: row r is in the block of point r / 512. -/
theorem cover22 (i : S16384x1.Idx) :
    ∃ t : Fin cfg0.N, (cfg0.win 22).flush t = true ∧ i ∈ ((cfg0.win 22).blk t).view.set := by
  have hi0 : (i 0).val < 16384 := (i 0).isLt
  have hi1 : (i 1).val < 1 := (i 1).isLt
  obtain ⟨t, ht⟩ : ∃ t : Fin cfg0.N, t.val = (i 0).val / 512 :=
    ⟨⟨(i 0).val / 512, by rw [show cfg0.N = 32 from N_0]; omega⟩, rfl⟩
  refine ⟨t, flush0_22 t, ?_⟩
  obtain ⟨e0, e1, e2, e3, e4, e5, e6, e7, e8, e9, e10, e11, e12, e13⟩ := idx_rows t
  rw [mem_blk22]
  intro a
  match a with
  | ⟨0, _⟩ => show win0_22.index t (0 : Fin 2) * 512 ≤ (i 0).val ∧ (i 0).val < win0_22.index t (0 : Fin 2) * 512 + 512; rw [e12, ht]; omega
  | ⟨1, _⟩ => show win0_22.index t (1 : Fin 2) * 1 ≤ (i 1).val ∧ (i 1).val < win0_22.index t (1 : Fin 2) * 1 + 1; rw [e13]; omega

/-- After the run the three output arrays hold the new state, the new cell and the new time column. -/
theorem final20 : (dats m 0 c).arrAt 20 cfg0.N = stateOf m c :=
  (dats m 0 c).arrAt_eq_of_cover 20 (stateOf m c) (fun t _ => flushed20_eq m c t) cover20
theorem final21 : (dats m 0 c).arrAt 21 cfg0.N = cellOf m c :=
  (dats m 0 c).arrAt_eq_of_cover 21 (cellOf m c) (fun t _ => flushed21_eq m c t) cover21
theorem final22 : (dats m 0 c).arrAt 22 cfg0.N = timeOf m c :=
  (dats m 0 c).arrAt_eq_of_cover 22 (timeOf m c) (fun t _ => flushed22_eq m c t) cover22

/-- The kernel's run: every weakly fair execution ends with the three results at the cell's functions of the
    argument arrays, the arguments unchanged. -/
theorem run : θ_run defs (onTc (τ := τ) (main (F := ID))) ⟨m, fun _ => 0, ρ⟩ fun r => ∀ c : Dev nD,
      r.2.mem ((c : Thread nD τ).loc main_v26_0) = stateOf m c
      ∧ r.2.mem ((c : Thread nD τ).loc main_v26_1) = cellOf m c
      ∧ r.2.mem ((c : Thread nD τ).loc main_v26_2) = timeOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final20 m c), (h c).2.1.trans (final21 m c),
      (h c).2.2.1.trans (final22 m c), (h c).2.2.2⟩)
    (Cert.KernelIdeal.Value.run_blocks m ρ)

end Cert.Cell.Blocks

end
-- ==== Proof.RefSide.lean ====
/-
  The reference program, stage by stage, is the cell of `Spec`: each stage read at row `r` (and column `j`) is the
  corresponding row function of `Spec` at row `r` of the inputs. The three results follow by composing the stages.
-/
import proofs.«161454_j24919400252151_1_alg».proof.Proof.Gen.ReferenceIdeal.Read
import proofs.«161454_j24919400252151_1_alg».proof.Proof.Spec

noncomputable section

namespace Cert.Cell.Ref

open Cert.ReferenceIdeal Cert.ReferenceIdeal.Gen Cert.ReferenceIdeal.Read
open Idealize.ShloMosaic Idealize.ShloMosaic.ValueIdx Idealize.ShloMosaic.StableHlo
open Cert.Cell

/-! ## Indices and the joined row -/

/-- A rank-2 index is determined by its two coordinates. -/
theorem idx2_eq {n0 n1 : Nat} (f : (⟨2, ![n0, n1]⟩ : Shape).Idx) (a : Fin n0) (b : Fin n1)
    (h0 : f 0 = a) (h1 : f 1 = b) : f = ix2 a b := by
  subst h0 h1
  exact eq_ix2 f

/-- A rank-1 index is determined by its coordinate. -/
theorem idx1_eq {n : Nat} (f : (⟨1, ![n]⟩ : Shape).Idx) (a : Fin n) (h0 : f 0 = a) : f = ix1 a := by
  subst h0
  exact eq_ix1 f

/-- The joined row [A, B] read in its first half is `A`. -/
theorem cat_lo (A B : Mat 16384 512) (r : Fin 16384) (k : Fin 512) :
    concatenate S16384x1024 1 [⟨S16384x512, A⟩, ⟨S16384x512, B⟩]
      concatenates_S16384x512_S16384x512_S16384x1024_d1 (ix2 r (lo k)) = A (ix2 r k) := by
  refine concatenate_pair_apply_left 1 A B _ (ix2 r (lo k)) rfl (ix2 r k) ?_
  intro b
  match b with
  | ⟨0, _⟩ => rfl
  | ⟨1, _⟩ => rfl

/-- The joined row [A, B] read in its second half is `B`. -/
theorem cat_hi (A B : Mat 16384 512) (r : Fin 16384) (k : Fin 512) :
    concatenate S16384x1024 1 [⟨S16384x512, A⟩, ⟨S16384x512, B⟩]
      concatenates_S16384x512_S16384x512_S16384x1024_d1 (ix2 r (hi k)) = B (ix2 r k) := by
  refine concatenate_pair_apply_right 1 A B _ (ix2 r (hi k)) rfl rfl (ix2 r k) ?_ ?_
  · intro b hb
    match b, hb with
    | ⟨0, _⟩, _ => rfl
    | ⟨1, _⟩, hb => exact absurd rfl hb
  · show k.val + 512 = 512 + k.val
    omega

/-- A sum over the joined row against a 1024-long column splits into the two halves. -/
theorem sum_cat (A B : Mat 16384 512) (r : Fin 16384) (g : Fin 1024 → EReal) :
    ∑ k : Fin 1024, concatenate S16384x1024 1 [⟨S16384x512, A⟩, ⟨S16384x512, B⟩]
        concatenates_S16384x512_S16384x512_S16384x1024_d1 (ix2 r k) * g k
      = dot (row A r) (fun k => g (lo k)) + dot (row B r) (fun k => g (hi k)) := by
  rw [sum_halves]
  unfold dot row
  congr 1
  · exact Finset.sum_congr rfl fun k _ => by rw [cat_lo]
  · exact Finset.sum_congr rfl fun k _ => by rw [cat_hi]

/-! ## The general shapes the reference's stages take

The generated stage functions are general in their array arguments, so one stage of each shape is read here for
arbitrary arrays; the sibling stages of the same shape are the same function of other arrays. -/

/-- A product of the joined row [A, B] with a transposed 512×1024 matrix, at row `r` and column `j`. -/
theorem lin1024 (A B : Mat 16384 512) (Wm : Mat 512 1024) (r : Fin 16384) (j : Fin 512) :
    val_main_v7 (F := Ideal) A B Wm (ix2 r j)
      = dot (row A r) (fun k => Wm (ix2 j (lo k))) + dot (row B r) (fun k => Wm (ix2 j (hi k))) := by
  refine (val_main_v7_apply A B Wm (ix2 r j)).trans ?_
  have hl : ∀ k, lidx_main_v7 (ix2 r j) k = ix2 r k := fun k => idx2_eq _ _ _ rfl rfl
  have hr : ∀ k, val_main_v6 (F := Ideal) Wm (ridx_main_v7 (ix2 r j) k) = Wm (ix2 j k) := fun k =>
    (val_main_v6_apply (F := Ideal) Wm _).trans (congrArg Wm (idx2_eq _ _ _ rfl rfl))
  simp only [hl, hr]
  exact sum_cat A B r fun k => Wm (ix2 j k)

/-- A product of the joined row [A, B] with a transposed 1×1024 matrix, at row `r`. -/
theorem lin1024_1 (A B : Mat 16384 512) (Wm : Mat 1 1024) (r : Fin 16384) :
    val_main_v2 (F := Ideal) A B Wm (ix2 r (0 : Fin 1))
      = dot (row A r) (fun k => Wm (ix2 (0 : Fin 1) (lo k))) + dot (row B r) (fun k => Wm (ix2 (0 : Fin 1) (hi k))) := by
  refine (val_main_v2_apply A B Wm (ix2 r (0 : Fin 1))).trans ?_
  have hl : ∀ k, lidx_main_v2 (ix2 r (0 : Fin 1)) k = ix2 r k := fun k => idx2_eq _ _ _ rfl rfl
  have hr : ∀ k, val_main_v1 (F := Ideal) Wm (ridx_main_v2 (ix2 r (0 : Fin 1)) k) = Wm (ix2 (0 : Fin 1) k) := fun k =>
    (val_main_v1_apply (F := Ideal) Wm _).trans (congrArg Wm (idx2_eq _ _ _ rfl rfl))
  simp only [hl, hr]
  exact sum_cat A B r fun k => Wm (ix2 (0 : Fin 1) k)

/-- A product of a 512-wide row with a transposed 512×512 matrix. -/
theorem lin512 (A : Mat 16384 512) (Wm : Mat 512 512) (r : Fin 16384) (j : Fin 512) :
    val_main_v23 (F := Ideal) A Wm (ix2 r j) = dot (row A r) (fun k => Wm (ix2 j k)) := by
  refine (val_main_v23_apply A Wm (ix2 r j)).trans ?_
  have hl : ∀ k, lidx_main_v23 (ix2 r j) k = ix2 r k := fun k => idx2_eq _ _ _ rfl rfl
  have hr : ∀ k, val_main_v22 (F := Ideal) Wm (ridx_main_v23 (ix2 r j) k) = Wm (ix2 j k) := fun k =>
    (val_main_v22_apply (F := Ideal) Wm _).trans (congrArg Wm (idx2_eq _ _ _ rfl rfl))
  simp only [hl, hr]
  rfl

/-- A product of a 512-wide row with a transposed 1×512 matrix. -/
theorem lin512_1 (A : Mat 16384 512) (Wm : Mat 1 512) (r : Fin 16384) :
    val_main_v28 (F := Ideal) A Wm (ix2 r (0 : Fin 1)) = dot (row A r) (fun k => Wm (ix2 (0 : Fin 1) k)) := by
  refine (val_main_v28_apply A Wm (ix2 r (0 : Fin 1))).trans ?_
  have hl : ∀ k, lidx_main_v28 (ix2 r (0 : Fin 1)) k = ix2 r k := fun k => idx2_eq _ _ _ rfl rfl
  have hr : ∀ k, val_main_v27 (F := Ideal) Wm (ridx_main_v28 (ix2 r (0 : Fin 1)) k) = Wm (ix2 (0 : Fin 1) k) := fun k =>
    (val_main_v27_apply (F := Ideal) Wm _).trans (congrArg Wm (idx2_eq _ _ _ rfl rfl))
  simp only [hl, hr]
  rfl

/-- A 512-long bias spread over the rows. -/
theorem bias512 (b : Vc 512) (r : Fin 16384) (j : Fin 512) :
    val_main_v9 (F := Ideal) b (ix2 r j) = b (ix1 j) := by
  refine (val_main_v9_apply (F := Ideal) b (ix2 r j)).trans ?_
  refine (val_main_v8_apply (F := Ideal) b _).trans ?_
  exact congrArg b (idx1_eq _ _ rfl)

/-- A one-entry bias spread over the rows. -/
theorem bias1 (b : Vc 1) (r : Fin 16384) (c : Fin 1) :
    val_main_v4 (F := Ideal) b (ix2 r c) = b (ix1 (0 : Fin 1)) := by
  refine (val_main_v4_apply (F := Ideal) b (ix2 r c)).trans ?_
  refine (val_main_v3_apply (F := Ideal) b _).trans ?_
  exact congrArg b (idx1_eq _ _ rfl)

/-- A scalar spread over a 16384×512 array, and over a 16384×1 array. -/
theorem scalar512 (y : S_.Idx → EReal) (i : S16384x512.Idx) :
    broadcastInDim S16384x512 ![] bcast_S_S16384x512 y i = y ix0 :=
  broadcastInDim_apply _ bcast_S_S16384x512 y i ix0 (fun a => a.elim0)
theorem scalar1 (y : S_.Idx → EReal) (i : S16384x1.Idx) :
    broadcastInDim S16384x1 ![] bcast_S_S16384x1 y i = y ix0 :=
  broadcastInDim_apply _ bcast_S_S16384x1 y i ix0 (fun a => a.elim0)

/-- A column spread over 512 columns. -/
theorem col512 (y : Mat 16384 1) (r : Fin 16384) (j : Fin 512) :
    broadcastInDim S16384x512 ![0, 1] bcast_S16384x1_S16384x512_0_1 y (ix2 r j) = y (ix2 r (0 : Fin 1)) := by
  refine (broadcastInDim_apply _ bcast_S16384x1_S16384x512_0_1 y (ix2 r j) (ix2 r (0 : Fin 1)) ?_)
  intro a
  match a with
  | ⟨0, _⟩ => show r.val = if (16384 : Nat) = 1 then 0 else r.val; rw [if_neg (by decide)]
  | ⟨1, _⟩ => show 0 = if (1 : Nat) = 1 then 0 else j.val; rw [if_pos rfl]

/-- The logistic function as the reference spells it: 1.0 / (1.0 + exp(−y)). -/
theorem logistic_word (y : Ideal .f32) :
    FloatOps.hostDivf (F := Ideal) (φ := .f32) one (FloatOps.addf (F := Ideal) (φ := .f32) one
        (FloatOps.hostUnary (F := Ideal) (φ := .f32) .exp (FloatOps.hostNegf (F := Ideal) (φ := .f32) y)))
      = Ideal.logistic y := by
  rw [Ideal.hostDivf_def, Ideal.addf_def, Ideal.hostUnary_exp_def, Ideal.hostNegf_def, Ideal.negf_def]
  exact logistic_spelled y

/-! ## The stages of the reference, at row `r` -/

section Stages

variable (x0 x1 x2 : Mat 16384 512) (x3 : Mat 16384 1) (x4 : Mat 1 1024) (x5 : Vc 1)
  (x6 : Mat 512 1024) (x7 : Vc 512) (x8 : Mat 512 1024) (x9 : Vc 512) (x10 : Mat 512 512) (x11 : Vc 512)
  (x12 : Mat 1 512) (x13 : Vc 1) (x14 : Mat 512 1024) (x15 : Vc 512)

local notation "W" => weights x4 x5 x6 x7 x8 x9 x10 x11 x12 x13 x14 x15

/-- z_t. -/
theorem st_zt (r : Fin 16384) (c : Fin 1) :
    val_main_v5 (F := Ideal) x0 x1 x4 x5 (ix2 r c) = zt W (row x0 r) (row x1 r) := by
  obtain rfl : c = 0 := Subsingleton.elim _ _
  rw [val_main_v5_apply, Ideal.addf_def, lin1024_1, bias1]
  rfl

/-- z_c. -/
theorem st_zc (r : Fin 16384) (j : Fin 512) :
    val_main_v10 (F := Ideal) x0 x1 x6 x7 (ix2 r j) = zc W (row x0 r) (row x1 r) j := by
  rw [val_main_v10_apply, Ideal.addf_def, lin1024, bias512]
  rfl

/-- z_w. -/
theorem st_zw (r : Fin 16384) (j : Fin 512) :
    val_main_v21 (F := Ideal) x0 x1 x8 x9 (ix2 r j) = zw W (row x0 r) (row x1 r) j := by
  have h1 : val_main_v12 (F := Ideal) x0 x1 x8 (ix2 r j) = _ := lin1024 x0 x1 x8 r j
  have h2 : val_main_v14 (F := Ideal) x9 (ix2 r j) = _ := bias512 x9 r j
  have o1 : val_main_v20 (F := Ideal) (ix2 r j) = one := scalar512 _ _
  have o2 : val_main_v18 (F := Ideal) (ix2 r j) = one := scalar512 _ _
  rw [val_main_v21_apply, val_main_v19_apply, val_main_v17_apply, val_main_v16_apply, val_main_v15_apply, o1, o2,
    logistic_word, Ideal.addf_def, h1, h2]
  rfl

/-- i_t. -/
theorem st_it (r : Fin 16384) (j : Fin 512) :
    val_main_v26 (F := Ideal) x0 x10 x11 (ix2 r j) = it W (row x0 r) j := by
  have h2 : val_main_v25 (F := Ideal) x11 (ix2 r j) = _ := bias512 x11 r j
  rw [val_main_v26_apply, Ideal.addf_def, lin512, h2]
  rfl

/-- r_t. -/
theorem st_rt (r : Fin 16384) (c : Fin 1) :
    val_main_v37 (F := Ideal) x0 x12 x13 (ix2 r c) = rt W (row x0 r) := by
  obtain rfl : c = 0 := Subsingleton.elim _ _
  have h2 : val_main_v30 (F := Ideal) x13 (ix2 r (0 : Fin 1)) = _ := bias1 x13 r 0
  have o1 : val_main_v36 (F := Ideal) (ix2 r (0 : Fin 1)) = one := scalar1 _ _
  have o2 : val_main_v34 (F := Ideal) (ix2 r (0 : Fin 1)) = one := scalar1 _ _
  rw [val_main_v37_apply, val_main_v35_apply, val_main_v33_apply, val_main_v32_apply, val_main_v31_apply, o1, o2,
    logistic_word, Ideal.addf_def, lin512_1, h2]
  rfl

/-- σ(tp + z_t). -/
theorem st_tgate (r : Fin 16384) (c : Fin 1) :
    val_main_v44 (F := Ideal) x0 x1 x3 x4 x5 (ix2 r c)
      = Ideal.logistic (x3 (ix2 r c) + zt W (row x0 r) (row x1 r)) := by
  have o1 : val_main_v43 (F := Ideal) (ix2 r c) = one := scalar1 _ _
  have o2 : val_main_v41 (F := Ideal) (ix2 r c) = one := scalar1 _ _
  rw [val_main_v44_apply, val_main_v42_apply, val_main_v40_apply, val_main_v39_apply, val_main_v38_apply, o1, o2,
    logistic_word, Ideal.addf_def, st_zt]

/-- The time entry before it is cut at zero. -/
theorem st_tpre (r : Fin 16384) (c : Fin 1) :
    val_main_v47 (F := Ideal) x0 x1 x3 x4 x5 x12 x13 (ix2 r c)
      = tpre W (row x0 r) (row x1 r) (x3 (ix2 r (0 : Fin 1))) := by
  obtain rfl : c = 0 := Subsingleton.elim _ _
  have o : val_main_v46 (F := Ideal) (ix2 r (0 : Fin 1)) = one := scalar1 _ _
  rw [val_main_v47_apply, val_main_v45_apply, o, Ideal.subf_def, Ideal.mulf_def, st_rt, st_tgate]
  rfl

/-- The new time entry. -/
theorem st_tnew (r : Fin 16384) (c : Fin 1) :
    val_main_v51 (F := Ideal) x0 x1 x3 x4 x5 x12 x13 (ix2 r c)
      = tnew W (row x0 r) (row x1 r) (x3 (ix2 r (0 : Fin 1))) := by
  have z : val_main_call0_v1 (F := Ideal) (ix2 r c) = zero := scalar1 _ _
  rw [val_main_v51_apply, z, Ideal.maximumf_def, st_tpre, max_comm]
  rfl

/-- The mask. -/
theorem st_msk (r : Fin 16384) (c : Fin 1) :
    val_main_v50 (F := Ideal) x0 x1 x3 x4 x5 x12 x13 (ix2 r c)
      = msk W (row x0 r) (row x1 r) (x3 (ix2 r (0 : Fin 1))) := by
  have z : val_main_v48 (F := Ideal) (ix2 r c) = zero := scalar1 _ _
  rw [val_main_v50_apply, val_main_v49_apply, z, Ideal.cmpf_def, st_tpre]
  rfl

/-- The kept cell, as the new cell meets it. -/
theorem st_cused55 (r : Fin 16384) (j : Fin 512) :
    val_main_v55 (F := Ideal) x0 x1 x2 x3 x4 x5 x12 x13 (ix2 r j)
      = cused W (row x0 r) (row x1 r) (row x2 r) (x3 (ix2 r (0 : Fin 1))) j := by
  have o : val_main_v52 (F := Ideal) (ix2 r (0 : Fin 1)) = one := scalar1 _ _
  have h : val_main_v54 (F := Ideal) x0 x1 x3 x4 x5 x12 x13 (ix2 r j)
      = val_main_v53 (F := Ideal) x0 x1 x3 x4 x5 x12 x13 (ix2 r (0 : Fin 1)) := col512 _ r j
  rw [val_main_v55_apply, h, val_main_v53_apply, o, Ideal.mulf_def, Ideal.subf_def, st_msk]
  rfl

/-- The kept cell, as the row mean meets it. -/
theorem st_cused63 (r : Fin 16384) (j : Fin 512) :
    val_main_v63 (F := Ideal) x0 x1 x2 x3 x4 x5 x12 x13 (ix2 r j)
      = cused W (row x0 r) (row x1 r) (row x2 r) (x3 (ix2 r (0 : Fin 1))) j := by
  have o : val_main_v60 (F := Ideal) (ix2 r (0 : Fin 1)) = one := scalar1 _ _
  have h : val_main_v62 (F := Ideal) x0 x1 x3 x4 x5 x12 x13 (ix2 r j)
      = val_main_v61 (F := Ideal) x0 x1 x3 x4 x5 x12 x13 (ix2 r (0 : Fin 1)) := col512 _ r j
  rw [val_main_v63_apply, h, val_main_v61_apply, o, Ideal.mulf_def, Ideal.subf_def, st_msk]
  rfl

/-- The new cell. -/
theorem st_cnew (r : Fin 16384) (j : Fin 512) :
    val_main_v59 (F := Ideal) x0 x1 x2 x3 x4 x5 x6 x7 x10 x11 x12 x13 (ix2 r j)
      = cnew W (row x0 r) (row x1 r) (row x2 r) (x3 (ix2 r (0 : Fin 1))) j := by
  have h : val_main_v56 (F := Ideal) x0 x1 x3 x4 x5 x12 x13 (ix2 r j)
      = val_main_v50 (F := Ideal) x0 x1 x3 x4 x5 x12 x13 (ix2 r (0 : Fin 1)) := col512 _ r j
  rw [val_main_v59_apply, val_main_v58_apply, val_main_v57_apply, h, st_cused55, st_msk, st_it, st_zc]
  rfl

/-- The mean of the kept cell's row. -/
theorem st_cscale (r : Fin 16384) (c : Fin 1) :
    val_main_v67 (F := Ideal) x0 x1 x2 x3 x4 x5 x12 x13 (ix2 r c)
      = cscale W (row x0 r) (row x1 r) (row x2 r) (x3 (ix2 r (0 : Fin 1))) := by
  have n : val_main_v66 (F := Ideal) (ix2 r c) = n512 := scalar1 _ _
  have hz : val_main_cst_10 (F := Ideal) (Shape.Idx.first h_S_) = 0 := Ideal.ofBits_zero_f32
  have hk : ∀ k, idx_main_v64 (idx_main_v65 (ix2 r c)) k = ix2 r k := fun k => idx2_eq _ _ _ rfl rfl
  rw [val_main_v67_apply, n, val_main_v65_apply, val_main_v64_apply, Ideal.hostDivf_def, hz, zero_add]
  simp only [hk, st_cused63 x0 x1 x2 x3 x4 x5 x6 x7 x8 x9 x10 x11 x12 x13 x14 x15]
  rfl

/-- The state row scaled by that mean. -/
theorem st_sscaled (r : Fin 16384) (j : Fin 512) :
    val_main_v69 (F := Ideal) x0 x1 x2 x3 x4 x5 x12 x13 (ix2 r j)
      = x1 (ix2 r j) * cscale W (row x0 r) (row x1 r) (row x2 r) (x3 (ix2 r (0 : Fin 1))) := by
  have h : val_main_v68 (F := Ideal) x0 x1 x2 x3 x4 x5 x12 x13 (ix2 r j)
      = val_main_v67 (F := Ideal) x0 x1 x2 x3 x4 x5 x12 x13 (ix2 r (0 : Fin 1)) := col512 _ r j
  rw [val_main_v69_apply, h, Ideal.mulf_def, st_cscale]

/-- The gate h. -/
theorem st_hgate (r : Fin 16384) (j : Fin 512) :
    val_main_v81 (F := Ideal) x0 x1 x2 x3 x4 x5 x12 x13 x14 x15 (ix2 r j)
      = hgate W (row x0 r) (row x1 r) (row x2 r) (x3 (ix2 r (0 : Fin 1))) j := by
  have h1 : val_main_v72 (F := Ideal) x0 x1 x2 x3 x4 x5 x12 x13 x14 (ix2 r j) = _ :=
    lin1024 x0 (val_main_v69 (F := Ideal) x0 x1 x2 x3 x4 x5 x12 x13) x14 r j
  have h2 : val_main_v74 (F := Ideal) x15 (ix2 r j) = _ := bias512 x15 r j
  have hrow : row (val_main_v69 (F := Ideal) x0 x1 x2 x3 x4 x5 x12 x13) r
      = fun k => row x1 r k * cscale W (row x0 r) (row x1 r) (row x2 r) (x3 (ix2 r (0 : Fin 1))) :=
    funext fun k => st_sscaled x0 x1 x2 x3 x4 x5 x6 x7 x8 x9 x10 x11 x12 x13 x14 x15 r k
  have o1 : val_main_v80 (F := Ideal) (ix2 r j) = one := scalar512 _ _
  have o2 : val_main_v78 (F := Ideal) (ix2 r j) = one := scalar512 _ _
  rw [val_main_v81_apply, val_main_v79_apply, val_main_v77_apply, val_main_v76_apply, val_main_v75_apply, o1, o2,
    logistic_word, Ideal.addf_def, h1, h2, hrow]
  rfl

/-- The new state. -/
theorem st_snew (r : Fin 16384) (j : Fin 512) :
    val_main_v93 (F := Ideal) x0 x1 x2 x3 x4 x5 x8 x9 x12 x13 x14 x15 (ix2 r j)
      = snew W (row x0 r) (row x1 r) (row x2 r) (x3 (ix2 r (0 : Fin 1))) j := by
  have o1 : val_main_v92 (F := Ideal) (ix2 r j) = one := scalar512 _ _
  have o2 : val_main_v90 (F := Ideal) (ix2 r j) = one := scalar512 _ _
  have o3 : val_main_v82 (F := Ideal) (ix2 r j) = one := scalar512 _ _
  rw [val_main_v93_apply, val_main_v91_apply, val_main_v89_apply, val_main_v88_apply, val_main_v87_apply,
    val_main_v86_apply, val_main_v85_apply, val_main_v84_apply, val_main_v83_apply, o1, o2, o3, logistic_word,
    st_zw, st_hgate]
  rfl

/-! ## The three results -/

theorem ref_newTime :
    val_main_v51 (F := Ideal) x0 x1 x3 x4 x5 x12 x13 = newTime x0 x1 x3 W := by
  funext i
  rw [eq_ix2 i]
  exact st_tnew x0 x1 x3 x4 x5 x6 x7 x8 x9 x10 x11 x12 x13 x14 x15 (i 0) (i 1)

theorem ref_newCell :
    val_main_v59 (F := Ideal) x0 x1 x2 x3 x4 x5 x6 x7 x10 x11 x12 x13 = newCell x0 x1 x2 x3 W := by
  funext i
  rw [eq_ix2 i]
  exact st_cnew x0 x1 x2 x3 x4 x5 x6 x7 x8 x9 x10 x11 x12 x13 x14 x15 (i 0) (i 1)

theorem ref_newState :
    val_main_v93 (F := Ideal) x0 x1 x2 x3 x4 x5 x8 x9 x12 x13 x14 x15 = newState x0 x1 x2 x3 W := by
  funext i
  rw [eq_ix2 i]
  exact st_snew x0 x1 x2 x3 x4 x5 x6 x7 x8 x9 x10 x11 x12 x13 x14 x15 (i 0) (i 1)

end Stages

end Cert.Cell.Ref

end
-- ==== Proof.RefRun.lean ====
import proofs.«161454_j24919400252151_1_alg».proof.Proof.Gen.ReferenceIdeal.Read
import proofs.«161454_j24919400252151_1_alg».proof.Proof.RefSide

noncomputable section

namespace Cert.Cell.Ref

open Idealize.ShloMosaic Idealize.ShloMosaic.TcCoe Idealize.SL.Sem
open Cert.ReferenceIdeal Cert.ReferenceIdeal.Gen Cert.Cell

local notation "ID" => Idealize.ShloMosaic.Ideal

variable (m : (ℓ : Loc nD τ sig) → Buf (Elt ID) ℓ) (ρ : Dev nD → PrngReg)

/-- The reference's run: every weakly fair execution ends with its three results at the cell's functions of the
    argument arrays, the arguments unchanged. -/
theorem run : θ_run defs (onTc (τ := τ) (main (F := ID))) ⟨m, fun _ => 0, ρ⟩ fun r => ∀ c : Dev nD,
      r.2.mem ((c.tc : Thread nD τ).loc main_v93) = newState (m ((c.tc : Thread nD τ).loc main_arg0) : S16384x512.Idx → EReal) (m ((c.tc : Thread nD τ).loc main_arg1) : S16384x512.Idx → EReal) (m ((c.tc : Thread nD τ).loc main_arg2) : S16384x512.Idx → EReal) (m ((c.tc : Thread nD τ).loc main_arg3) : S16384x1.Idx → EReal)
        (weights (m ((c.tc : Thread nD τ).loc main_arg4) : S1x1024.Idx → EReal) (m ((c.tc : Thread nD τ).loc main_arg5) : S1.Idx → EReal) (m ((c.tc : Thread nD τ).loc main_arg6) : S512x1024.Idx → EReal) (m ((c.tc : Thread nD τ).loc main_arg7) : S512.Idx → EReal) (m ((c.tc : Thread nD τ).loc main_arg8) : S512x1024.Idx → EReal) (m ((c.tc : Thread nD τ).loc main_arg9) : S512.Idx → EReal) (m ((c.tc : Thread nD τ).loc main_arg10) : S512x512.Idx → EReal) (m ((c.tc : Thread nD τ).loc main_arg11) : S512.Idx → EReal) (m ((c.tc : Thread nD τ).loc main_arg12) : S1x512.Idx → EReal) (m ((c.tc : Thread nD τ).loc main_arg13) : S1.Idx → EReal) (m ((c.tc : Thread nD τ).loc main_arg14) : S512x1024.Idx → EReal) (m ((c.tc : Thread nD τ).loc main_arg15) : S512.Idx → EReal))
      ∧ r.2.mem ((c.tc : Thread nD τ).loc main_v59) = newCell (m ((c.tc : Thread nD τ).loc main_arg0) : S16384x512.Idx → EReal) (m ((c.tc : Thread nD τ).loc main_arg1) : S16384x512.Idx → EReal) (m ((c.tc : Thread nD τ).loc main_arg2) : S16384x512.Idx → EReal) (m ((c.tc : Thread nD τ).loc main_arg3) : S16384x1.Idx → EReal)
        (weights (m ((c.tc : Thread nD τ).loc main_arg4) : S1x1024.Idx → EReal) (m ((c.tc : Thread nD τ).loc main_arg5) : S1.Idx → EReal) (m ((c.tc : Thread nD τ).loc main_arg6) : S512x1024.Idx → EReal) (m ((c.tc : Thread nD τ).loc main_arg7) : S512.Idx → EReal) (m ((c.tc : Thread nD τ).loc main_arg8) : S512x1024.Idx → EReal) (m ((c.tc : Thread nD τ).loc main_arg9) : S512.Idx → EReal) (m ((c.tc : Thread nD τ).loc main_arg10) : S512x512.Idx → EReal) (m ((c.tc : Thread nD τ).loc main_arg11) : S512.Idx → EReal) (m ((c.tc : Thread nD τ).loc main_arg12) : S1x512.Idx → EReal) (m ((c.tc : Thread nD τ).loc main_arg13) : S1.Idx → EReal) (m ((c.tc : Thread nD τ).loc main_arg14) : S512x1024.Idx → EReal) (m ((c.tc : Thread nD τ).loc main_arg15) : S512.Idx → EReal))
      ∧ r.2.mem ((c.tc : Thread nD τ).loc main_v51) = newTime (m ((c.tc : Thread nD τ).loc main_arg0) : S16384x512.Idx → EReal) (m ((c.tc : Thread nD τ).loc main_arg1) : S16384x512.Idx → EReal) (m ((c.tc : Thread nD τ).loc main_arg3) : S16384x1.Idx → EReal)
        (weights (m ((c.tc : Thread nD τ).loc main_arg4) : S1x1024.Idx → EReal) (m ((c.tc : Thread nD τ).loc main_arg5) : S1.Idx → EReal) (m ((c.tc : Thread nD τ).loc main_arg6) : S512x1024.Idx → EReal) (m ((c.tc : Thread nD τ).loc main_arg7) : S512.Idx → EReal) (m ((c.tc : Thread nD τ).loc main_arg8) : S512x1024.Idx → EReal) (m ((c.tc : Thread nD τ).loc main_arg9) : S512.Idx → EReal) (m ((c.tc : Thread nD τ).loc main_arg10) : S512x512.Idx → EReal) (m ((c.tc : Thread nD τ).loc main_arg11) : S512.Idx → EReal) (m ((c.tc : Thread nD τ).loc main_arg12) : S1x512.Idx → EReal) (m ((c.tc : Thread nD τ).loc main_arg13) : S1.Idx → EReal) (m ((c.tc : Thread nD τ).loc main_arg14) : S512x1024.Idx → EReal) (m ((c.tc : Thread nD τ).loc main_arg15) : S512.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c =>
    ⟨(h c).1.trans ((Cert.ReferenceIdeal.Read.val_main_v93_eq m c).trans
        (ref_newState (m ((c.tc : Thread nD τ).loc main_arg0) : S16384x512.Idx → EReal) (m ((c.tc : Thread nD τ).loc main_arg1) : S16384x512.Idx → EReal) (m ((c.tc : Thread nD τ).loc main_arg2) : S16384x512.Idx → EReal) (m ((c.tc : Thread nD τ).loc main_arg3) : S16384x1.Idx → EReal) (m ((c.tc : Thread nD τ).loc main_arg4) : S1x1024.Idx → EReal) (m ((c.tc : Thread nD τ).loc main_arg5) : S1.Idx → EReal) (m ((c.tc : Thread nD τ).loc main_arg6) : S512x1024.Idx → EReal) (m ((c.tc : Thread nD τ).loc main_arg7) : S512.Idx → EReal) (m ((c.tc : Thread nD τ).loc main_arg8) : S512x1024.Idx → EReal) (m ((c.tc : Thread nD τ).loc main_arg9) : S512.Idx → EReal) (m ((c.tc : Thread nD τ).loc main_arg10) : S512x512.Idx → EReal) (m ((c.tc : Thread nD τ).loc main_arg11) : S512.Idx → EReal) (m ((c.tc : Thread nD τ).loc main_arg12) : S1x512.Idx → EReal) (m ((c.tc : Thread nD τ).loc main_arg13) : S1.Idx → EReal) (m ((c.tc : Thread nD τ).loc main_arg14) : S512x1024.Idx → EReal) (m ((c.tc : Thread nD τ).loc main_arg15) : S512.Idx → EReal))),
      (h c).2.1.trans ((Cert.ReferenceIdeal.Read.val_main_v59_eq m c).trans
        (ref_newCell (m ((c.tc : Thread nD τ).loc main_arg0) : S16384x512.Idx → EReal) (m ((c.tc : Thread nD τ).loc main_arg1) : S16384x512.Idx → EReal) (m ((c.tc : Thread nD τ).loc main_arg2) : S16384x512.Idx → EReal) (m ((c.tc : Thread nD τ).loc main_arg3) : S16384x1.Idx → EReal) (m ((c.tc : Thread nD τ).loc main_arg4) : S1x1024.Idx → EReal) (m ((c.tc : Thread nD τ).loc main_arg5) : S1.Idx → EReal) (m ((c.tc : Thread nD τ).loc main_arg6) : S512x1024.Idx → EReal) (m ((c.tc : Thread nD τ).loc main_arg7) : S512.Idx → EReal) (m ((c.tc : Thread nD τ).loc main_arg8) : S512x1024.Idx → EReal) (m ((c.tc : Thread nD τ).loc main_arg9) : S512.Idx → EReal) (m ((c.tc : Thread nD τ).loc main_arg10) : S512x512.Idx → EReal) (m ((c.tc : Thread nD τ).loc main_arg11) : S512.Idx → EReal) (m ((c.tc : Thread nD τ).loc main_arg12) : S1x512.Idx → EReal) (m ((c.tc : Thread nD τ).loc main_arg13) : S1.Idx → EReal) (m ((c.tc : Thread nD τ).loc main_arg14) : S512x1024.Idx → EReal) (m ((c.tc : Thread nD τ).loc main_arg15) : S512.Idx → EReal))),
      (h c).2.2.1.trans
        (ref_newTime (m ((c.tc : Thread nD τ).loc main_arg0) : S16384x512.Idx → EReal) (m ((c.tc : Thread nD τ).loc main_arg1) : S16384x512.Idx → EReal) (m ((c.tc : Thread nD τ).loc main_arg3) : S16384x1.Idx → EReal) (m ((c.tc : Thread nD τ).loc main_arg4) : S1x1024.Idx → EReal) (m ((c.tc : Thread nD τ).loc main_arg5) : S1.Idx → EReal) (m ((c.tc : Thread nD τ).loc main_arg6) : S512x1024.Idx → EReal) (m ((c.tc : Thread nD τ).loc main_arg7) : S512.Idx → EReal) (m ((c.tc : Thread nD τ).loc main_arg8) : S512x1024.Idx → EReal) (m ((c.tc : Thread nD τ).loc main_arg9) : S512.Idx → EReal) (m ((c.tc : Thread nD τ).loc main_arg10) : S512x512.Idx → EReal) (m ((c.tc : Thread nD τ).loc main_arg11) : S512.Idx → EReal) (m ((c.tc : Thread nD τ).loc main_arg12) : S1x512.Idx → EReal) (m ((c.tc : Thread nD τ).loc main_arg13) : S1.Idx → EReal) (m ((c.tc : Thread nD τ).loc main_arg14) : S512x1024.Idx → EReal) (m ((c.tc : Thread nD τ).loc main_arg15) : S512.Idx → EReal)),
      (h c).2.2.2⟩)
    (Cert.ReferenceIdeal.Value.run (F := ID) m ρ)

end Cert.Cell.Ref

end
-- ==== Proof.lean ====
/-
  The certificate of a recurrent cell: a fused kernel over 32 blocks of 512 batch rows against the plain reference.

  Both programs compute, row by row of the batch, the same three results (Proof/Spec.lean): the new time entry
  max(r_t·σ(t + z_t) − 1, 0), the new cell (1 − m)·c + m·i_t + z_c with m the indicator of r_t·σ(t + z_t) − 1 ≤ 0, and the
  new state σ((1 − z_w)·s + z_w·h + x) with h = σ(x·Wh_x + (s · mean((1 − m)·c))·Wh_s + b_h).  The kernel multiplies the
  input row and the state row by the two halves of each transposed weight matrix separately and adds the products; the
  reference multiplies the concatenated row [x, s] by the whole transposed matrix.  At the extended reals a sum over 1024
  terms is the sum of its two halves, with or without infinities, so the two agree; every other operation is the same on
  both sides (a change of float format is the identity, the logistic function is 1/(1 + e^(−y)) however it is spelt, the
  mask's bit read signed after widening or unsigned is the same number, max is commutative).  No finiteness is used.

  The kernel's side: each grid point's output blocks are the row functions of that point's input blocks (Proof/KernRow,
  KernGate, KernState, KernOut), the blocks of the batch arrays are their rows 512·t … 512·t + 511 and the weight blocks
  are the transposed, halved weights (Proof/HostSide, BlockReads), and the 32 blocks tile each output (Proof/Final).
  The reference's side: its operations composed are the same row functions (Proof/RefSide, RefRun).
-/
import proofs.«161454_j24919400252151_1_alg».proof.Defs
import proofs.«161454_j24919400252151_1_alg».proof.Proof.Gen.Kernel
import proofs.«161454_j24919400252151_1_alg».proof.Proof.Gen.Kernel.Skeleton
import proofs.«161454_j24919400252151_1_alg».proof.Proof.Gen.Kernel.Launch
import proofs.«161454_j24919400252151_1_alg».proof.Proof.Gen.Kernel.Points
import proofs.«161454_j24919400252151_1_alg».proof.Proof.Gen.Kernel.Frame
import proofs.«161454_j24919400252151_1_alg».proof.Proof.Gen.KernelIdeal
import proofs.«161454_j24919400252151_1_alg».proof.Proof.Gen.KernelIdeal.Skeleton
import proofs.«161454_j24919400252151_1_alg».proof.Proof.Gen.KernelIdeal.Launch
import proofs.«161454_j24919400252151_1_alg».proof.Proof.Gen.KernelIdeal.Points
import proofs.«161454_j24919400252151_1_alg».proof.Proof.Gen.KernelIdeal.Frame
import proofs.«161454_j24919400252151_1_alg».proof.Proof.Gen.ReferenceIdeal
import proofs.«161454_j24919400252151_1_alg».proof.Proof.Gen.Pre_finite_inputs
import proofs.«161454_j24919400252151_1_alg».proof.Proof.Gen.KernelIdeal.Value
import proofs.«161454_j24919400252151_1_alg».proof.Proof.Gen.ReferenceIdeal.Run
import proofs.«161454_j24919400252151_1_alg».proof.Proof.Gen.ReferenceIdeal.Read
import proofs.«161454_j24919400252151_1_alg».proof.Proof.Final
import proofs.«161454_j24919400252151_1_alg».proof.Proof.RefRun
import Idealize.ShloMosaic.Adequacy
import Idealize.ShloMosaic.Init

noncomputable section

namespace Cert.Proof

open Idealize.ShloMosaic Idealize.SL.Sem

/-- The word-level kernel's frame and the idealized kernel's frame are generated whole. -/
theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Idealize.ShloMosaic.Ideal) m ρ)

/-- From memories that agree on the sixteen arguments both programs end with the cell's three results of those
    arguments. -/
theorem algebraic : Cert.algebraic_KernelIdeal_ReferenceIdeal := by
  intro m ρ m' ρ' _ hagree
  refine ⟨fun c => Cert.Cell.Blocks.stateOf m c, fun c => Cert.Cell.Blocks.cellOf m c, fun c => Cert.Cell.Blocks.timeOf m c,
    Cert.Cell.Blocks.run m ρ, ?_⟩
  refine (θ_run Cert.ReferenceIdeal.defs _ _).mono (fun r h c => ?_) (Cert.Cell.Ref.run m' ρ')
  obtain ⟨a0, a1, a2, a3, a4, a5, a6, a7, a8, a9, a10, a11, a12, a13, a14, a15⟩ := hagree c
  refine ⟨(h c).1.trans ?_, (h c).2.1.trans ?_, (h c).2.2.1.trans ?_, (h c).2.2.2⟩
  · rw [a0, a1, a2, a3, a4, a5, a6, a7, a8, a9, a10, a11, a12, a13, a14, a15]; rfl
  · rw [a0, a1, a2, a3, a4, a5, a6, a7, a8, a9, a10, a11, a12, a13, a14, a15]; rfl
  · rw [a0, a1, a3, a4, a5, a6, a7, a8, a9, a10, a11, a12, a13, a14, a15]; rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
